-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x2048x4 : Shape := ⟨3, ![4, 2048, 4]⟩
abbrev S2048x4 : Shape := ⟨2, ![2048, 4]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x2048x4 : S_.BroadcastsInDim S4x2048x4 (![] : Fin 0 → Fin S4x2048x4.rank)
  reducesTo_S4x2048x4_S_d0_1_2 : S4x2048x4.ReducesTo [0, 1, 2] S_
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4x4096x2048 .f32) (main_arg1 : FVec F S4x2048x4 .f32) (main_arg2 : FVec F S2048x4 .f32) (main_arg3 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x2048x4 .f32 := Host.absf main_arg1
  let main_cst_0 : FVec F S_ .f32 := constant S_ .f32 0x7F800000#32
  let main_v5 : FVec F S4x2048x4 .f32 := broadcastInDim S4x2048x4 ![] bcast_S_S4x2048x4 main_cst_0
  let main_v6 : IVec S4x2048x4 1 := cmpf .olt main_v4 main_v5
  let main_c_1 : IVec S_ 1 := constantI S_ 1 1#1
  let main_v7 : IVec S_ 1 := (fun x v => Host.reduce IntOp.andi x v reducesTo_S4x2048x4_S_d0_1_2 h_S_) main_v6 main_c_1
  let main_v8 : IVec S_ 1 := andi main_v3 main_v7
  let main_v9 : FVec F S2048x4 .f32 := Host.absf main_arg2
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_c_3 : IVec S_ 1 := constantI S_ 1 1#1
  let main_v12 : IVec S_ 1 := (fun x v => Host.reduce IntOp.andi x v reducesTo_S2048x4_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4x4096x2048 : Shape := ⟨3, ![4, 4096, 2048]⟩
abbrev S4x2048x4 : Shape := ⟨3, ![4, 2048, 4]⟩
abbrev S2048x4 : Shape := ⟨2, ![2048, 4]⟩
abbrev S2048 : Shape := ⟨1, ![2048]⟩
abbrev S4x2048 : Shape := ⟨2, ![4, 2048]⟩
abbrev S1x2048 : Shape := ⟨2, ![1, 2048]⟩
abbrev S4x4x2048 : Shape := ⟨3, ![4, 4, 2048]⟩
abbrev S1x512x2048 : Shape := ⟨3, ![1, 512, 2048]⟩
abbrev S1x4x2048 : Shape := ⟨3, ![1, 4, 2048]⟩
abbrev S1x8x2048 : Shape := ⟨3, ![1, 8, 2048]⟩
abbrev S1x520x2048 : Shape := ⟨3, ![1, 520, 2048]⟩
abbrev S1x3x2048 : Shape := ⟨3, ![1, 3, 2048]⟩
abbrev S1x1x2048 : Shape := ⟨3, ![1, 1, 2048]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x2048x4, .f32⟩
  | .hbm, ⟨2, _⟩ => ⟨S2048x4, .f32⟩
  | .hbm, ⟨3, _⟩ => ⟨S2048, .f32⟩
  | .hbm, ⟨4, _⟩ => ⟨S4x2048, .f32⟩
  | .hbm, ⟨5, _⟩ => ⟨S1x2048, .f32⟩
  | .hbm, ⟨6, _⟩ => ⟨S4x4x2048, .f32⟩
  | .hbm, ⟨7, _⟩ => ⟨S4x4096x2048, .f32⟩
  | .hbm, ⟨8, _⟩ => ⟨S4x4x2048, .f32⟩
  | .hbm, ⟨9, _⟩ => ⟨S4x2048x4, .f32⟩
  | .local _ .vmem, ⟨0, _⟩ => ⟨S1x512x2048, .f32⟩
  | .local _ .vmem, ⟨1, _⟩ => ⟨S1x512x2048, .f32⟩
  | .local _ .vmem, ⟨2, _⟩ => ⟨S1x4x2048, .f32⟩
  | .local _ .vmem, ⟨3, _⟩ => ⟨S1x4x2048, .f32⟩
  | .local _ .vmem, ⟨4, _⟩ => ⟨S4x2048, .f32⟩
  | .local _ .vmem, ⟨5, _⟩ => ⟨S1x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x8x2048, .f32⟩
  | .local _ .vmem, ⟨9, _⟩ => ⟨S1x520x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S2048x4_S4x2048_1_0 : S2048x4.Transposes [1, 0] S4x2048
  bcast_S2048_S1x2048_1 : S2048.BroadcastsInDim S1x2048 (![1] : Fin 1 → Fin S1x2048.rank)
  transposes_S4x2048x4_S4x4x2048_0_2_1 : S4x2048x4.Transposes [0, 2, 1] S4x4x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S1x8x2048 : S1x8x2048.ShapeCasts S1x8x2048
  inb_S1x4x2048_S1x3x2048_0_1_0 : ∀ a, (![0, 1, 0] : Fin 3 → Nat) a + S1x3x2048.size a ≤ S1x4x2048.size a
  h_S1x3x2048 : 0 < S1x3x2048.numel
  shapeCasts_S1x3x2048_S1x3x2048 : S1x3x2048.ShapeCasts S1x3x2048
  inb_S1x8x2048_S1x3x2048_0_5_0 : ∀ a, (![0, 5, 0] : Fin 3 → Nat) a + S1x3x2048.size a ≤ S1x8x2048.size a
  inb_S1x512x2048_S1x512x2048_0_0_0 : ∀ a, (![0, 0, 0] : Fin 3 → Nat) a + S1x512x2048.size a ≤ S1x512x2048.size a
  h_S1x512x2048 : 0 < S1x512x2048.numel
  inb_S1x520x2048_S1x8x2048_0_0_0 : ∀ a, (![0, 0, 0] : Fin 3 → Nat) a + S1x8x2048.size a ≤ S1x520x2048.size a
  inb_S1x520x2048_S1x512x2048_0_8_0 : ∀ a, (![0, 8, 0] : Fin 3 → Nat) a + S1x512x2048.size a ≤ S1x520x2048.size a
  shapeCasts_S1x512x2048_S1x512x2048 : S1x512x2048.ShapeCasts S1x512x2048
  inb_S4x2048_S1x2048_3_0 : ∀ a, (![3, 0] : Fin 2 → Nat) a + S1x2048.size a ≤ S4x2048.size a
  h_S1x2048 : 0 < S1x2048.numel
  shapeCasts_S1x2048_S2048 : S1x2048.ShapeCasts S2048
  shapeCasts_S2048_S1x1x2048 : S2048.ShapeCasts S1x1x2048
  inb_S1x2048_S1x2048_0_0 : ∀ a, (![0, 0] : Fin 2 → Nat) a + S1x2048.size a ≤ S1x2048.size a
  shapeCasts_S1x2048_S1x2048 : S1x2048.ShapeCasts S1x2048
  shapeCasts_S1x2048_S1x1x2048 : S1x2048.ShapeCasts S1x1x2048
  broadcasts_S1x1x2048_S1x512x2048 : S1x1x2048.Broadcasts S1x512x2048
  inb_S1x520x2048_S1x512x2048_0_5_0 : ∀ a, (![0, 5, 0] : Fin 3 → Nat) a + S1x512x2048.size a ≤ S1x520x2048.size a
  inb_S4x2048_S1x2048_0_0 : ∀ a, (![0, 0] : Fin 2 → Nat) a + S1x2048.size a ≤ S4x2048.size a
  inb_S1x520x2048_S1x512x2048_0_6_0 : ∀ a, (![0, 6, 0] : Fin 3 → Nat) a + S1x512x2048.size a ≤ S1x520x2048.size a
  inb_S4x2048_S1x2048_1_0 : ∀ a, (![1, 0] : Fin 2 → Nat) a + S1x2048.size a ≤ S4x2048.size a
  inb_S1x520x2048_S1x512x2048_0_7_0 : ∀ a, (![0, 7, 0] : Fin 3 → Nat) a + S1x512x2048.size a ≤ S1x520x2048.size a
  inb_S4x2048_S1x2048_2_0 : ∀ a, (![2, 0] : Fin 2 → Nat) a + S1x2048.size a ≤ S4x2048.size a
  inb_S1x520x2048_S1x8x2048_0_512_0 : ∀ a, (![0, 512, 0] : Fin 3 → Nat) a + S1x8x2048.size a ≤ S1x520x2048.size a
  slices_S4x4096x2048_S4x4x2048_0_4092_0 : S4x4096x2048.Slices ![0, 4092, 0] S4x4x2048
  transposes_S4x4x2048_S4x2048x4_0_2_1 : S4x4x2048.Transposes [0, 2, 1] S4x2048x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x2048.size a ≤ S4x4x2048.size a
  hwx0_1 : ∀ i : grid0.Coords, EltTy.bits .f32 = 32 ∨ (Rect.block (s := S4x4x2048) S1x4x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x2048.size a
  hwx0_2 : ∀ i : grid0.Coords, EltTy.bits .f32 = 32 ∨ (Rect.block (s := S4x2048) S4x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S4x4096x2048.size a
  hwx0_4 : ∀ i : grid0.Coords, EltTy.bits .f32 = 32 ∨ (Rect.block (s := S4x4096x2048) S1x512x2048.size (cc0_transform_4 i) (hinb0_4 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x2048x4 : Shape := ⟨3, ![4, 2048, 4]⟩
abbrev S2048x4 : Shape := ⟨2, ![2048, 4]⟩
abbrev S2048 : Shape := ⟨1, ![2048]⟩
abbrev S4x2048x4096 : Shape := ⟨3, ![4, 2048, 4096]⟩
abbrev S4x2048x3 : Shape := ⟨3, ![4, 2048, 3]⟩
abbrev S4x2048x4099 : Shape := ⟨3, ![4, 2048, 4099]⟩
abbrev S_ : Shape := ⟨0, ![]⟩
abbrev S2048x1 : Shape := ⟨2, ![2048, 1]⟩
abbrev S1x2048x1 : Shape := ⟨3, ![1, 2048, 1]⟩
abbrev S4x2048x4100 : Shape := ⟨3, ![4, 2048, 4100]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048x4, .f32⟩
  | .hbm, ⟨2, _⟩ => ⟨S2048x4, .f32⟩
  | .hbm, ⟨3, _⟩ => ⟨S2048, .f32⟩
  | .hbm, ⟨4, _⟩ => ⟨S4x2048x4096, .f32⟩
  | .hbm, ⟨5, _⟩ => ⟨S4x2048x3, .f32⟩
  | .hbm, ⟨6, _⟩ => ⟨S4x2048x4099, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S2048x1, .f32⟩
  | .hbm, ⟨11, _⟩ => ⟨S2048, .f32⟩
  | .hbm, ⟨12, _⟩ => ⟨S1x2048x1, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S2048x1, .f32⟩
  | .hbm, ⟨18, _⟩ => ⟨S2048, .f32⟩
  | .hbm, ⟨19, _⟩ => ⟨S1x2048x1, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S2048x1, .f32⟩
  | .hbm, ⟨25, _⟩ => ⟨S2048, .f32⟩
  | .hbm, ⟨26, _⟩ => ⟨S1x2048x1, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | .hbm, ⟨31, _⟩ => ⟨S2048x1, .f32⟩
  | .hbm, ⟨32, _⟩ => ⟨S2048, .f32⟩
  | .hbm, ⟨33, _⟩ => ⟨S1x2048x1, .f32⟩
  | .hbm, ⟨34, _⟩ => ⟨S4x2048x4096, .f32⟩
  | .hbm, ⟨35, _⟩ => ⟨S4x2048x4096, .f32⟩
  | .hbm, ⟨36, _⟩ => ⟨S4x2048x4096, .f32⟩
  | .hbm, ⟨37, _⟩ => ⟨S1x2048x1, .f32⟩
  | .hbm, ⟨38, _⟩ => ⟨S4x2048x4096, .f32⟩
  | .hbm, ⟨39, _⟩ => ⟨S4x2048x4096, .f32⟩
  | .hbm, ⟨40, _⟩ => ⟨S4x2048x4100, .f32⟩
  | .hbm, ⟨41, _⟩ => ⟨S4x2048x4, .f32⟩
  | .hbm, ⟨42, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]

class Facts₀ : Prop where
  transposes_S4x4096x2048_S4x2048x4096_0_2_1 : S4x4096x2048.Transposes [0, 2, 1] S4x2048x4096
  slices_S4x2048x4_S4x2048x3_0_0_1 : S4x2048x4.Slices ![0, 0, 1] S4x2048x3
  concatenates_S4x2048x3_S4x2048x4096_S4x2048x4099_d2 : Shape.Concatenates [S4x2048x3, S4x2048x4096] S4x2048x4099 2
  bcast_S_S4x2048x4096 : S_.BroadcastsInDim S4x2048x4096 (![] : Fin 0 → Fin S4x2048x4096.rank)
  slices_S4x2048x4099_S4x2048x4096_0_0_0 : S4x2048x4099.Slices ![0, 0, 0] S4x2048x4096
  slices_S2048x4_S2048x1_0_0 : S2048x4.Slices ![0, 0] S2048x1
  shapeCasts_S2048x1_S2048 : S2048x1.ShapeCasts S2048
  bcast_S2048_S1x2048x1_1 : S2048.BroadcastsInDim S1x2048x1 (![1] : Fin 1 → Fin S1x2048x1.rank)
  bcast_S1x2048x1_S4x2048x4096_0_1_2 : S1x2048x1.BroadcastsInDim S4x2048x4096 (![0, 1, 2] : Fin 3 → Fin S4x2048x4096.rank)
  slices_S4x2048x4099_S4x2048x4096_0_0_1 : S4x2048x4099.Slices ![0, 0, 1] S4x2048x4096
  slices_S2048x4_S2048x1_0_1 : S2048x4.Slices ![0, 1] S2048x1
  slices_S4x2048x4099_S4x2048x4096_0_0_2 : S4x2048x4099.Slices ![0, 0, 2] S4x2048x4096
  slices_S2048x4_S2048x1_0_2 : S2048x4.Slices ![0, 2] S2048x1
  slices_S4x2048x4099_S4x2048x4096_0_0_3 : S4x2048x4099.Slices ![0, 0, 3] S4x2048x4096
  slices_S2048x4_S2048x1_0_3 : S2048x4.Slices ![0, 3] S2048x1
  concatenates_S4x2048x4_S4x2048x4096_S4x2048x4100_d2 : Shape.Concatenates [S4x2048x4, S4x2048x4096] S4x2048x4100 2
  slices_S4x2048x4100_S4x2048x4_0_0_4096 : S4x2048x4100.Slices ![0, 0, 4096] S4x2048x4
  transposes_S4x2048x4096_S4x4096x2048_0_2_1 : S4x2048x4096.Transposes [0, 2, 1] S4x4096x2048

variable [Facts₀]

class Facts : Prop extends Facts₀ where

variable [Facts]
-- ==== Proof.Window.lean ====
/-
  The staged window of one grid point: a buffer of 520 rows whose first eight rows are the carried rows and whose
  remaining 512 rows are the point's tile of `x`. The kernel writes it as two stacked stores and then reads shifted
  boxes of it; this module states what the two stores leave as one function of the row, and what a box reads.
-/
import proofs.«177478_j59760174956725_2_alg».proof.KernelIdeal
import Idealize.ShloMosaic.Lib.Pipeline.Value
import Idealize.ShloMosaic.Lib.ValueIdx

noncomputable section

open Idealize.ShloMosaic Idealize.ShloMosaic.ValueIdx

namespace Cert.KernelIdeal.Window

open Cert.KernelIdeal

variable {Val : EltTy → Type} [∀ e, Nonempty (Val e)]

theorem hz3 : (![0, 0, 0] : Fin 3 → Nat) = fun _ => 0 := funext fun a => by fin_cases a <;> rfl

/-- Row `r` of the window: carried row `r` when `r < 8`, else row `r - 8` of the tile. -/
def windowOf (carry : S1x8x2048.Idx → Val .f32) (tile : S1x512x2048.Idx → Val .f32) : S1x520x2048.Idx → Val .f32 :=
  fun y => if h : (y 1).val < 8 then carry (ix3 0 ⟨(y 1).val, h⟩ (y 2))
    else tile (ix3 0 ⟨(y 1).val - 8, by have h520 : (y 1).val < 520 := (y 1).isLt; omega⟩ (y 2))

/-- The two stores cover the window. -/
theorem cover_window (inb8 : ∀ a, (![0, 8, 0] : Fin 3 → Nat) a + S1x512x2048.size a ≤ S1x520x2048.size a)
    (inb0 : ∀ a, (![0, 0, 0] : Fin 3 → Nat) a + S1x8x2048.size a ≤ S1x520x2048.size a)
    (carry : S1x8x2048.Idx → Val .f32) (tile : S1x512x2048.Idx → Val .f32) (y : S1x520x2048.Idx) :
    ∃ p ∈ [(⟨Rect.unit ![0, 8, 0] S1x512x2048.size inb8, tile⟩ : View.Piece Val S1x520x2048 .f32),
      ⟨Rect.unit ![0, 0, 0] S1x8x2048.size inb0, carry⟩], y ∈ p.1.set := by
  have h0 : (y 0).val < 1 := (y 0).isLt
  have h1 : (y 1).val < 520 := (y 1).isLt
  have h2 : (y 2).val < 2048 := (y 2).isLt
  by_cases h : (y 1).val < 8
  · refine ⟨⟨Rect.unit ![0, 0, 0] S1x8x2048.size inb0, carry⟩, List.mem_cons_of_mem _ (List.mem_singleton_self _), (Rect.mem_set_unit (inb := inb0)).mpr fun a => ?_⟩
    match a with
    | ⟨0, _⟩ => exact ⟨Nat.zero_le _, by show (y 0).val < 0 + 1; omega⟩
    | ⟨1, _⟩ => exact ⟨Nat.zero_le _, by show (y 1).val < 0 + 8; omega⟩
    | ⟨2, _⟩ => exact ⟨Nat.zero_le _, by show (y 2).val < 0 + 2048; omega⟩
  · refine ⟨⟨Rect.unit ![0, 8, 0] S1x512x2048.size inb8, tile⟩, List.mem_cons_self, (Rect.mem_set_unit (inb := inb8)).mpr fun a => ?_⟩
    match a with
    | ⟨0, _⟩ => exact ⟨Nat.zero_le _, by show (y 0).val < 0 + 1; omega⟩
    | ⟨1, _⟩ => exact ⟨by show 8 ≤ (y 1).val; omega, by show (y 1).val < 8 + 512; omega⟩
    | ⟨2, _⟩ => exact ⟨Nat.zero_le _, by show (y 2).val < 0 + 2048; omega⟩

/-- The tile stored at rows 8… over the carried rows stored at rows 0…7 leave the window. -/
theorem canon_window (inb8 : ∀ a, (![0, 8, 0] : Fin 3 → Nat) a + S1x512x2048.size a ≤ S1x520x2048.size a)
    (inb0 : ∀ a, (![0, 0, 0] : Fin 3 → Nat) a + S1x8x2048.size a ≤ S1x520x2048.size a)
    (carry : S1x8x2048.Idx → Val .f32) (tile : S1x512x2048.Idx → Val .f32) :
    View.canon [(⟨Rect.unit ![0, 8, 0] S1x512x2048.size inb8, tile⟩ : View.Piece Val S1x520x2048 .f32),
      ⟨Rect.unit ![0, 0, 0] S1x8x2048.size inb0, carry⟩] = windowOf carry tile := by
  funext y
  refine View.canon_apply_of_pieces (windowOf carry tile) _ ?_ y ?_
  · intro p hp x
    rcases List.mem_cons.mp hp with rfl | hp
    · have h1 : ((Rect.unit (s := S1x520x2048) ![0, 8, 0] S1x512x2048.size inb8).emb x 1).val = 8 + 1 * (x 1).val := rfl
      unfold windowOf
      rw [dif_neg (by rw [h1]; omega)]
      refine congrArg tile (funext fun a => Fin.ext ?_)
      match a with
      | ⟨0, _⟩ => show (x 0).val = (0 : ℕ); have : (x 0).val < 1 := (x 0).isLt; omega
      | ⟨1, _⟩ => show (x 1).val = ((Rect.unit (s := S1x520x2048) ![0, 8, 0] S1x512x2048.size inb8).emb x 1).val - 8; rw [h1]; omega
      | ⟨2, _⟩ => show (x 2).val = 0 + 1 * (x 2).val; omega
    · rcases List.mem_singleton.mp hp with rfl
      have h1 : ((Rect.unit (s := S1x520x2048) ![0, 0, 0] S1x8x2048.size inb0).emb x 1).val = 0 + 1 * (x 1).val := rfl
      have hx : (x 1).val < 8 := (x 1).isLt
      unfold windowOf
      rw [dif_pos (by rw [h1]; omega)]
      refine congrArg carry (funext fun a => Fin.ext ?_)
      match a with
      | ⟨0, _⟩ => show (x 0).val = (0 : ℕ); have : (x 0).val < 1 := (x 0).isLt; omega
      | ⟨1, _⟩ => show (x 1).val = ((Rect.unit (s := S1x520x2048) ![0, 0, 0] S1x8x2048.size inb0).emb x 1).val; rw [h1]; omega
      | ⟨2, _⟩ => show (x 2).val = 0 + 1 * (x 2).val; omega
  · exact cover_window inb8 inb0 carry tile y

/-- A box loaded from the window after the two stores reads the window at the box's rows. -/
theorem readCov_window {sig : RefSig} {κ : Kind} {sp : Space} (v : View sig κ sp S1x520x2048 .f32)
    (inb8 : ∀ a, (![0, 8, 0] : Fin 3 → Nat) a + S1x512x2048.size a ≤ S1x520x2048.size a)
    (inb0 : ∀ a, (![0, 0, 0] : Fin 3 → Nat) a + S1x8x2048.size a ≤ S1x520x2048.size a)
    (carry : S1x8x2048.Idx → Val .f32) (tile : S1x512x2048.Idx → Val .f32) (r : Rect S1x520x2048) :
    v.readCov [(⟨Rect.unit ![0, 8, 0] S1x512x2048.size inb8, tile⟩ : View.Piece Val S1x520x2048 .f32),
      ⟨Rect.unit ![0, 0, 0] S1x8x2048.size inb0, carry⟩] r.toLoadRect = View.ld (windowOf carry tile) r := by
  rw [View.readCov_eq_canon_ld v _ r (cover_window inb8 inb0 carry tile), canon_window]

/-- A box of the window at row offset `k`, at an index: the window `k` rows further down. -/
theorem ld_window_apply (k : ℕ) (inb : ∀ a, (![0, k, 0] : Fin 3 → Nat) a + S1x512x2048.size a ≤ S1x520x2048.size a)
    (W : S1x520x2048.Idx → Val .f32) (z : S1x512x2048.Idx) :
    View.ld W (Rect.unit ![0, k, 0] S1x512x2048.size inb) z
      = W (ix3 0 ⟨k + (z 1).val, by have h520 : k + 512 ≤ 520 := inb 1; have h : (z 1).val < 512 := (z 1).isLt; omega⟩ (z 2)) := by
  refine congrArg W (funext fun a => Fin.ext ?_)
  match a with
  | ⟨0, _⟩ => show 0 + 1 * (z 0).val = 0; have : (z 0).val < 1 := (z 0).isLt; omega
  | ⟨1, _⟩ => show k + 1 * (z 1).val = k + (z 1).val; omega
  | ⟨2, _⟩ => show 0 + 1 * (z 2).val = (z 2).val; omega

/-- The carried rows at a batch's first tile: rows 5, 6, 7 are the three rows `top`, the rows below them `base`'s. -/
def rowsOver (top : S1x3x2048.Idx → Val .f32) (base : S1x8x2048.Idx → Val .f32) : S1x8x2048.Idx → Val .f32 :=
  fun y => if h : 5 ≤ (y 1).val then top (ix3 0 ⟨(y 1).val - 5, by have h8 : (y 1).val < 8 := (y 1).isLt; omega⟩ (y 2))
    else base y

/-- Three rows stored at rows 5… over a store of all eight rows leave `rowsOver`. -/
theorem canon_rowsOver (inb5 : ∀ a, (![0, 5, 0] : Fin 3 → Nat) a + S1x3x2048.size a ≤ S1x8x2048.size a)
    (inb0 : ∀ a, (![0, 0, 0] : Fin 3 → Nat) a + S1x8x2048.size a ≤ S1x8x2048.size a)
    (top : S1x3x2048.Idx → Val .f32) (base : S1x8x2048.Idx → Val .f32) :
    View.canon [(⟨Rect.unit ![0, 5, 0] S1x3x2048.size inb5, top⟩ : View.Piece Val S1x8x2048 .f32),
      ⟨Rect.unit ![0, 0, 0] S1x8x2048.size inb0, base⟩] = rowsOver top base := by
  funext y
  by_cases hm : y ∈ (Rect.unit (s := S1x8x2048) ![0, 5, 0] S1x3x2048.size inb5).set
  · obtain ⟨x, rfl⟩ : ∃ x, (Rect.unit (s := S1x8x2048) ![0, 5, 0] S1x3x2048.size inb5).emb x = y :=
      (Rect.unit (s := S1x8x2048) ![0, 5, 0] S1x3x2048.size inb5).exists_idx_of_mem hm
    rw [View.canon_cons_emb]
    have h1 : ((Rect.unit (s := S1x8x2048) ![0, 5, 0] S1x3x2048.size inb5).emb x 1).val = 5 + 1 * (x 1).val := rfl
    unfold rowsOver
    rw [dif_pos (by rw [h1]; omega)]
    refine congrArg top (funext fun a => Fin.ext ?_)
    match a with
    | ⟨0, _⟩ => show (x 0).val = (0 : ℕ); have : (x 0).val < 1 := (x 0).isLt; omega
    | ⟨1, _⟩ => show (x 1).val = ((Rect.unit (s := S1x8x2048) ![0, 5, 0] S1x3x2048.size inb5).emb x 1).val - 5; rw [h1]; omega
    | ⟨2, _⟩ => show (x 2).val = 0 + 1 * (x 2).val; omega
  · rw [View.canon_cons_of_not_mem (⟨Rect.unit ![0, 5, 0] S1x3x2048.size inb5, top⟩ : View.Piece Val S1x8x2048 .f32) _ hm,
      View.canon_unit_zero (S := S1x8x2048) hz3 inb0 base]
    unfold rowsOver
    rw [dif_neg]
    intro h5
    have h0 : (y 0).val < 1 := (y 0).isLt
    have h1 : (y 1).val < 8 := (y 1).isLt
    have h2 : (y 2).val < 2048 := (y 2).isLt
    refine hm ((Rect.mem_set_unit (inb := inb5)).mpr fun a => ?_)
    match a with
    | ⟨0, _⟩ => exact ⟨Nat.zero_le _, by show (y 0).val < 0 + 1; omega⟩
    | ⟨1, _⟩ => exact ⟨h5, by show (y 1).val < 5 + 3; omega⟩
    | ⟨2, _⟩ => exact ⟨Nat.zero_le _, by show (y 2).val < 0 + 2048; omega⟩

end Cert.KernelIdeal.Window

end
-- ==== Proof.LibLaneRow.lean ====
/-
  A lane-oriented row broadcast over the rows of a tile, read at an index.

  A kernel that scales every row of a `[1, m, n]` tile by one row of per-lane coefficients takes the row as a `[1, n]`
  array, reshapes it (directly, or through `[n]`) to `[1, 1, n]`, and broadcasts it to `[1, m, n]`. Read at `(0, r, l)` the
  result is the row's entry `(0, l)`, whatever `r` is: the reshapes keep the row-major position, which for all three
  shapes is the lane `l`, and the broadcast ignores the unit axes.
-/
import Idealize.ShloMosaic.Lib.Pipeline.Value
import Idealize.ShloMosaic.Lib.ValueIdx

noncomputable section

open Idealize.ShloMosaic Idealize.ShloMosaic.ValueIdx

namespace Cert.LaneRow

variable {α : Type}

/-- A `[1, n]` row cast to `[1, 1, n]` and broadcast to `[1, m, n]`, at an index: the row at the index's lane. -/
theorem cast_broadcast_apply {m n : ℕ} (v : (⟨2, ![1, n]⟩ : Shape).Idx → α)
    (h2 : (⟨2, ![1, n]⟩ : Shape).ShapeCasts ⟨3, ![1, 1, n]⟩)
    (h3 : (⟨3, ![1, 1, n]⟩ : Shape).Broadcasts ⟨3, ![1, m, n]⟩) (z : (⟨3, ![1, m, n]⟩ : Shape).Idx) :
    broadcastTo ⟨3, ![1, m, n]⟩ (shapeCast ⟨3, ![1, 1, n]⟩ v h2) h3 z = v (ix2 0 ⟨(z 2).val, (z 2).isLt⟩) := by
  have hz2 : (z 2).val < n := (z 2).isLt
  rw [broadcastTo_apply _ h3 z (ix3 0 0 ⟨(z 2).val, hz2⟩) (fun a => by
    match a with
    | ⟨0, _⟩ => show (0 : ℕ) = if (1 : ℕ) = 1 then 0 else _; rw [if_pos rfl]
    | ⟨1, _⟩ => show (0 : ℕ) = if (1 : ℕ) = 1 then 0 else _; rw [if_pos rfl]
    | ⟨2, _⟩ =>
      show (z 2).val = if n = 1 then 0 else (z 2).val
      split_ifs with hn
      · omega
      · rfl)]
  exact shapeCast_apply v h2 _ _ (by
    rw [Shape.rowMajor_val_two, Shape.rowMajor_val_three]
    show 0 * n + (z 2).val = (0 * 1 + 0) * n + (z 2).val
    omega)

/-- The same with the row first flattened to `[n]`. -/
theorem flat_cast_broadcast_apply {m n : ℕ} (v : (⟨2, ![1, n]⟩ : Shape).Idx → α)
    (h1 : (⟨2, ![1, n]⟩ : Shape).ShapeCasts ⟨1, ![n]⟩) (h2 : (⟨1, ![n]⟩ : Shape).ShapeCasts ⟨3, ![1, 1, n]⟩)
    (h3 : (⟨3, ![1, 1, n]⟩ : Shape).Broadcasts ⟨3, ![1, m, n]⟩) (z : (⟨3, ![1, m, n]⟩ : Shape).Idx) :
    broadcastTo ⟨3, ![1, m, n]⟩ (shapeCast ⟨3, ![1, 1, n]⟩ (shapeCast ⟨1, ![n]⟩ v h1) h2) h3 z
      = v (ix2 0 ⟨(z 2).val, (z 2).isLt⟩) := by
  have hz2 : (z 2).val < n := (z 2).isLt
  rw [broadcastTo_apply _ h3 z (ix3 0 0 ⟨(z 2).val, hz2⟩) (fun a => by
    match a with
    | ⟨0, _⟩ => show (0 : ℕ) = if (1 : ℕ) = 1 then 0 else _; rw [if_pos rfl]
    | ⟨1, _⟩ => show (0 : ℕ) = if (1 : ℕ) = 1 then 0 else _; rw [if_pos rfl]
    | ⟨2, _⟩ =>
      show (z 2).val = if n = 1 then 0 else (z 2).val
      split_ifs with hn
      · omega
      · rfl)]
  rw [shapeCast_apply (shapeCast ⟨1, ![n]⟩ v h1) h2 _ (ix1 ⟨(z 2).val, hz2⟩) (by
    rw [Shape.rowMajor_val_one, Shape.rowMajor_val_three]
    show (z 2).val = (0 * 1 + 0) * n + (z 2).val
    omega)]
  exact shapeCast_apply v h1 _ _ (by
    rw [Shape.rowMajor_val_two, Shape.rowMajor_val_one]
    show 0 * n + (z 2).val = (z 2).val
    omega)

/-- The same with the row first cast to its own shape. -/
theorem self_cast_broadcast_apply {m n : ℕ} (v : (⟨2, ![1, n]⟩ : Shape).Idx → α)
    (h1 : (⟨2, ![1, n]⟩ : Shape).ShapeCasts ⟨2, ![1, n]⟩) (h2 : (⟨2, ![1, n]⟩ : Shape).ShapeCasts ⟨3, ![1, 1, n]⟩)
    (h3 : (⟨3, ![1, 1, n]⟩ : Shape).Broadcasts ⟨3, ![1, m, n]⟩) (z : (⟨3, ![1, m, n]⟩ : Shape).Idx) :
    broadcastTo ⟨3, ![1, m, n]⟩ (shapeCast ⟨3, ![1, 1, n]⟩ (shapeCast ⟨2, ![1, n]⟩ v h1) h2) h3 z
      = v (ix2 0 ⟨(z 2).val, (z 2).isLt⟩) := by
  rw [shapeCast_self]
  exact cast_broadcast_apply v h2 h3 z

end Cert.LaneRow

end
-- ==== Proof.BodyValue.lean ====
/-
  What one grid point of the kernel computes, as functions of the blocks it is handed.

  The body stages a window of 520 rows — eight carried rows, then the point's tile of `x` — and its output at row `r`, lane
  `l` is  x[r,l]·w₃[l] + bias[l] + win[r+5,l]·w₀[l] + win[r+6,l]·w₁[l] + win[r+7,l]·w₂[l]  (added in this order): row `r + 8` of
  the window is row `r` of the tile, so the three window rows are the three rows before `r`, reaching into the carried
  rows for `r < 3`. At a batch's first tile the carried rows are set to zeros with the context entries 1, 2, 3 in rows
  5, 6, 7; at a later tile they are what the tile before left: its last eight rows. Both cases leave the tile's last
  eight rows as the new carried rows.
-/
import proofs.«177478_j59760174956725_2_alg».proof.Proof.Gen.KernelIdeal.Frame
import proofs.«177478_j59760174956725_2_alg».proof.Proof.Window
import proofs.«177478_j59760174956725_2_alg».proof.Proof.LibLaneRow
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Body

open Cert.KernelIdeal Cert.KernelIdeal.Gen Cert.KernelIdeal.Window

/-- Rows 504…511 of a tile: what the next tile of the same batch finds as its carried rows. -/
def lastRows (tile : Vec Ideal S1x512x2048 .f32) : Vec Ideal S1x8x2048 .f32 :=
  fun y => tile (ix3 0 ⟨504 + (y 1).val, by have h8 : (y 1).val < 8 := (y 1).isLt; omega⟩ (y 2))

/-- The carried rows a batch's first tile sets up: zeros, with the context entries 1, 2, 3 in rows 5, 6, 7. -/
def carryFirst (cs : Vec Ideal S1x4x2048 .f32) : Vec Ideal S1x8x2048 .f32 :=
  rowsOver (fun y => cs (ix3 0 ⟨1 + (y 1).val, by have h3 : (y 1).val < 3 := (y 1).isLt; omega⟩ (y 2)))
    (broadcast S1x8x2048 (Scalar.ofBits (F := Ideal) .f32 0x00000000#32))

/-- What one grid point writes to its output tile, from the carried rows, the tile of `x`, the taps (tap-major) and the
    bias row. -/
def bodyOut (carry : Vec Ideal S1x8x2048 .f32) (tile : Vec Ideal S1x512x2048 .f32) (wt : Vec Ideal S4x2048 .f32)
    (bs : Vec Ideal S1x2048 .f32) : Vec Ideal S1x512x2048 .f32 := fun z =>
  have hz : (z 1).val < 512 := (z 1).isLt
  (((tile z * wt (ix2 3 ⟨(z 2).val, (z 2).isLt⟩) + bs (ix2 0 ⟨(z 2).val, (z 2).isLt⟩))
      + windowOf carry tile (ix3 0 ⟨5 + (z 1).val, by omega⟩ (z 2)) * wt (ix2 0 ⟨(z 2).val, (z 2).isLt⟩))
      + windowOf carry tile (ix3 0 ⟨6 + (z 1).val, by omega⟩ (z 2)) * wt (ix2 1 ⟨(z 2).val, (z 2).isLt⟩))
      + windowOf carry tile (ix3 0 ⟨7 + (z 1).val, by omega⟩ (z 2)) * wt (ix2 2 ⟨(z 2).val, (z 2).isLt⟩)

theorem hz2 : (![0, 0] : Fin 2 → Nat) = fun _ => 0 := funext fun a => by fin_cases a <;> rfl

/-- Row `k` of the taps, flattened, made a `[1, 1, 2048]` row and broadcast over the tile, at an index: tap `k` of the lane. -/
theorem tapRow_apply (k : ℕ) (hk : k < 4) (wt : Vec Ideal S4x2048 .f32)
    (inb : ∀ a, (![k, 0] : Fin 2 → Nat) a + S1x2048.size a ≤ S4x2048.size a)
    (h1 : S1x2048.ShapeCasts S2048) (h2 : S2048.ShapeCasts S1x1x2048) (h3 : S1x1x2048.Broadcasts S1x512x2048)
    (z : S1x512x2048.Idx) :
    broadcastTo S1x512x2048 (shapeCast S1x1x2048 (shapeCast S2048 (View.ld wt (Rect.unit ![k, 0] S1x2048.size inb)) h1) h2) h3 z
      = wt (ix2 ⟨k, hk⟩ ⟨(z 2).val, (z 2).isLt⟩) := by
  rw [Cert.LaneRow.flat_cast_broadcast_apply]
  refine congrArg wt (funext fun a => Fin.ext ?_)
  match a with
  | ⟨0, _⟩ => show k + 1 * 0 = k; omega
  | ⟨1, _⟩ => show 0 + 1 * (z 2).val = (z 2).val; omega

/-- The bias row made a `[1, 1, 2048]` row and broadcast over the tile, at an index: the lane's bias. -/
theorem biasRow_apply (bs : Vec Ideal S1x2048 .f32)
    (inb : ∀ a, (![0, 0] : Fin 2 → Nat) a + S1x2048.size a ≤ S1x2048.size a)
    (h1 : S1x2048.ShapeCasts S1x2048) (h2 : S1x2048.ShapeCasts S1x1x2048) (h3 : S1x1x2048.Broadcasts S1x512x2048)
    (z : S1x512x2048.Idx) :
    broadcastTo S1x512x2048 (shapeCast S1x1x2048 (shapeCast S1x2048 (View.ld bs (Rect.unit ![0, 0] S1x2048.size inb)) h1) h2) h3 z
      = bs (ix2 0 ⟨(z 2).val, (z 2).isLt⟩) := by
  rw [Cert.LaneRow.self_cast_broadcast_apply]
  refine congrArg bs (funext fun a => Fin.ext ?_)
  match a with
  | ⟨0, _⟩ => show 0 + 1 * 0 = 0; omega
  | ⟨1, _⟩ => show 0 + 1 * (z 2).val = (z 2).val; omega

/-- Three rows stored at rows 5… over a store of all eight rows, loaded back whole. -/
theorem readCov_rowsOver {sig : RefSig} {κ : Kind} {sp : Space} (v : View sig κ sp S1x8x2048 .f32)
    (inb5 : ∀ a, (![0, 5, 0] : Fin 3 → Nat) a + S1x3x2048.size a ≤ S1x8x2048.size a)
    (inb0 inb0' : ∀ a, (![0, 0, 0] : Fin 3 → Nat) a + S1x8x2048.size a ≤ S1x8x2048.size a)
    (top : S1x3x2048.Idx → Elt Ideal .f32) (base : S1x8x2048.Idx → Elt Ideal .f32) :
    v.readCov [(⟨Rect.unit ![0, 5, 0] S1x3x2048.size inb5, top⟩ : View.Piece (Elt Ideal) S1x8x2048 .f32),
      ⟨Rect.unit ![0, 0, 0] S1x8x2048.size inb0, base⟩] (Rect.unit ![0, 0, 0] S1x8x2048.size inb0').toLoadRect
      = rowsOver top base := by
  rw [View.readCov_eq_canon_ld v _ _ (fun y => ⟨⟨Rect.unit ![0, 0, 0] S1x8x2048.size inb0, base⟩,
      List.mem_cons_of_mem _ (List.mem_singleton_self _), View.mem_set_unit_zero (S := S1x8x2048) hz3 inb0 y⟩),
    canon_rowsOver, View.ld_unit_zero (S := S1x8x2048) hz3]

/-- The rows the first tile sets up, as the stores' payloads spell them, are `carryFirst`. -/
theorem rowsOver_eq_carryFirst (cs : Vec Ideal S1x4x2048 .f32)
    (inb1 : ∀ a, (![0, 1, 0] : Fin 3 → Nat) a + S1x3x2048.size a ≤ S1x4x2048.size a) :
    rowsOver (k0_pay4 (F := Ideal) (View.ld cs (Rect.unit ![0, 1, 0] S1x3x2048.size inb1))) (k0_pay3 (F := Ideal))
      = carryFirst cs := by
  unfold carryFirst
  congr 1
  · unfold k0_pay4
    simp only [shapeCast_self]
    funext y
    refine congrArg cs (funext fun a => Fin.ext ?_)
    match a with
    | ⟨0, _⟩ => show 0 + 1 * (y 0).val = 0; have : (y 0).val < 1 := (y 0).isLt; omega
    | ⟨1, _⟩ => show 1 + 1 * (y 1).val = 1 + (y 1).val; omega
    | ⟨2, _⟩ => show 0 + 1 * (y 2).val = (y 2).val; omega

/-- The payload of the output store, over a window, at an index. -/
theorem pay_apply (carry : Vec Ideal S1x8x2048 .f32) (x0 : Vec Ideal S1x512x2048 .f32) (x2 : Vec Ideal S4x2048 .f32)
    (x3 : Vec Ideal S1x2048 .f32) :
    k0_pay1 (F := Ideal)
      (k0_pay7 (F := Ideal) x0 (View.ld x2 (Rect.unit ![3, 0] S1x2048.size inb_S4x2048_S1x2048_3_0))
        (View.ld x3 (Rect.unit ![0, 0] S1x2048.size inb_S1x2048_S1x2048_0_0))
        (View.ld (windowOf carry x0) (Rect.unit ![0, 5, 0] S1x512x2048.size inb_S1x520x2048_S1x512x2048_0_5_0))
        (View.ld x2 (Rect.unit ![0, 0] S1x2048.size inb_S4x2048_S1x2048_0_0)))
      (View.ld (windowOf carry x0) (Rect.unit ![0, 6, 0] S1x512x2048.size inb_S1x520x2048_S1x512x2048_0_6_0))
      (View.ld x2 (Rect.unit ![1, 0] S1x2048.size inb_S4x2048_S1x2048_1_0))
      (View.ld (windowOf carry x0) (Rect.unit ![0, 7, 0] S1x512x2048.size inb_S1x520x2048_S1x512x2048_0_7_0))
      (View.ld x2 (Rect.unit ![2, 0] S1x2048.size inb_S4x2048_S1x2048_2_0))
    = bodyOut carry x0 x2 x3 := by
  funext z
  unfold k0_pay1 k0_pay7 bodyOut
  simp only [addf_apply, mulf_apply, tapRow_apply 3 (by omega), tapRow_apply 0 (by omega), tapRow_apply 1 (by omega),
    tapRow_apply 2 (by omega)]
  rw [biasRow_apply, ld_window_apply 5, ld_window_apply 6, ld_window_apply 7]
  rfl

/-- A later tile of a batch (the carried rows are what the tile before left). -/
theorem out_B (c : Dev nD) (i : grid0.Coords) (a2 : Memref sig .tc .vmem S1x512x2048 .f32) (h2 : a2.IsWhole) (a3 : Memref sig .tc .vmem S1x4x2048 .f32) (h3 : a3.IsWhole) (a4 : Memref sig .tc .vmem S4x2048 .f32) (h4 : a4.IsWhole) (a5 : Memref sig .tc .vmem S1x2048 .f32) (h5 : a5.IsWhole) (a6 : Memref sig .tc .vmem S1x512x2048 .f32) (h6 : a6.IsWhole) (a7 : Memref sig .tc .vmem S1x8x2048 .f32) (h7 : a7.IsWhole) (a8 : Memref sig .tc .vmem S1x520x2048 .f32) (h8 : a8.IsWhole) (hc : ¬cond0_0 i)
    (x0 : Vec Ideal S1x512x2048 .f32) (x1 : Vec Ideal S1x4x2048 .f32) (x2 : Vec Ideal S4x2048 .f32) (x3 : Vec Ideal S1x2048 .f32)
    (xs0 : Vec Ideal S1x8x2048 .f32) :
    out0_B_4 (F := Ideal) c i a2 h2 a3 h3 a4 h4 a5 h5 a6 h6 a7 h7 a8 h8 hc x0 x1 x2 x3 xs0 = bodyOut xs0 x0 x2 x3 := by
  unfold out0_B_4
  rw [View.read_writes_eq_canon _ _ _ (cover0_B_4 c i a2 h2 a3 h3 a4 h4 a5 h5 a6 h6 a7 h7 a8 h8 hc x0 x1 x2 x3 xs0)]
  unfold kernelRun0_B
  dsimp only
  sl_unfold_words
  rw [View.canon_unit_zero (S := S1x512x2048) hz3]
  simp only [View.readAt_eq_ld, h2.read_unread, h3.read_unread, h4.read_unread, h5.read_unread, h7.read_unread,
    View.ld_unit_zero (S := S1x512x2048) hz3, View.ld_unit_zero (S := S1x8x2048) hz3]
  rw [show k0_pay6 (F := Ideal) x0 = x0 from shapeCast_self _ _, show k0_pay5 (F := Ideal) xs0 = xs0 from shapeCast_self _ _]
  rw [readCov_window, readCov_window, readCov_window]
  exact pay_apply xs0 x0 x2 x3

/-- The new carried rows: the window's rows 512…519 are the tile's last eight rows, whatever was carried in. -/
theorem pay2_apply (carry : Vec Ideal S1x8x2048 .f32) (x0 : Vec Ideal S1x512x2048 .f32)
    (inb : ∀ a, (![0, 512, 0] : Fin 3 → Nat) a + S1x8x2048.size a ≤ S1x520x2048.size a) :
    k0_pay2 (F := Ideal) (View.ld (windowOf carry x0) (Rect.unit ![0, 512, 0] S1x8x2048.size inb)) = lastRows x0 := by
  unfold k0_pay2
  rw [shapeCast_self]
  funext y
  have h8 : (y 1).val < 8 := (y 1).isLt
  have h1 : ((Rect.unit (s := S1x520x2048) ![0, 512, 0] S1x8x2048.size inb).idx y 1).val = 512 + 1 * (y 1).val := rfl
  show windowOf carry x0 ((Rect.unit (s := S1x520x2048) ![0, 512, 0] S1x8x2048.size inb).idx y) = lastRows x0 y
  unfold windowOf lastRows
  rw [dif_neg (by rw [h1]; omega)]
  refine congrArg x0 (funext fun a => Fin.ext ?_)
  match a with
  | ⟨0, _⟩ => rfl
  | ⟨1, _⟩ => show ((Rect.unit (s := S1x520x2048) ![0, 512, 0] S1x8x2048.size inb).idx y 1).val - 8 = 504 + (y 1).val; rw [h1]; omega
  | ⟨2, _⟩ => show 0 + 1 * (y 2).val = (y 2).val; omega

/-- A batch's first tile (the carried rows are set up from the context). -/
theorem out_A (c : Dev nD) (i : grid0.Coords) (a2 : Memref sig .tc .vmem S1x512x2048 .f32) (h2 : a2.IsWhole) (a3 : Memref sig .tc .vmem S1x4x2048 .f32) (h3 : a3.IsWhole) (a4 : Memref sig .tc .vmem S4x2048 .f32) (h4 : a4.IsWhole) (a5 : Memref sig .tc .vmem S1x2048 .f32) (h5 : a5.IsWhole) (a6 : Memref sig .tc .vmem S1x512x2048 .f32) (h6 : a6.IsWhole) (a7 : Memref sig .tc .vmem S1x8x2048 .f32) (h7 : a7.IsWhole) (a8 : Memref sig .tc .vmem S1x520x2048 .f32) (h8 : a8.IsWhole) (hc : cond0_0 i)
    (x0 : Vec Ideal S1x512x2048 .f32) (x1 : Vec Ideal S1x4x2048 .f32) (x2 : Vec Ideal S4x2048 .f32) (x3 : Vec Ideal S1x2048 .f32) :
    out0_A_4 (F := Ideal) c i a2 h2 a3 h3 a4 h4 a5 h5 a6 h6 a7 h7 a8 h8 hc x0 x1 x2 x3 = bodyOut (carryFirst x1) x0 x2 x3 := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero (S := S1x512x2048) hz3]
  simp only [View.readAt_eq_ld, h2.read_unread, h3.read_unread, h4.read_unread, h5.read_unread,
    View.ld_unit_zero (S := S1x512x2048) hz3]
  rw [readCov_rowsOver, rowsOver_eq_carryFirst]
  rw [show k0_pay6 (F := Ideal) x0 = x0 from shapeCast_self _ _,
    show k0_pay5 (F := Ideal) (carryFirst x1) = carryFirst x1 from shapeCast_self _ _]
  rw [readCov_window, readCov_window, readCov_window]
  exact pay_apply (carryFirst x1) x0 x2 x3

/-- After a batch's first tile the carried rows are the tile's last eight rows. -/
theorem sout_A (c : Dev nD) (i : grid0.Coords) (a2 : Memref sig .tc .vmem S1x512x2048 .f32) (h2 : a2.IsWhole) (a3 : Memref sig .tc .vmem S1x4x2048 .f32) (h3 : a3.IsWhole) (a4 : Memref sig .tc .vmem S4x2048 .f32) (h4 : a4.IsWhole) (a5 : Memref sig .tc .vmem S1x2048 .f32) (h5 : a5.IsWhole) (a6 : Memref sig .tc .vmem S1x512x2048 .f32) (h6 : a6.IsWhole) (a7 : Memref sig .tc .vmem S1x8x2048 .f32) (h7 : a7.IsWhole) (a8 : Memref sig .tc .vmem S1x520x2048 .f32) (h8 : a8.IsWhole) (hc : cond0_0 i)
    (x0 : Vec Ideal S1x512x2048 .f32) (x1 : Vec Ideal S1x4x2048 .f32) (x2 : Vec Ideal S4x2048 .f32) (x3 : Vec Ideal S1x2048 .f32) :
    sout0_A_0 (F := Ideal) c i a2 h2 a3 h3 a4 h4 a5 h5 a6 h6 a7 h7 a8 h8 hc x0 x1 x2 x3 = lastRows x0 := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  rw [View.canon_cons_unit_zero (S := S1x8x2048) hz3]
  simp only [View.readAt_eq_ld, h2.read_unread, h3.read_unread, View.ld_unit_zero (S := S1x512x2048) hz3]
  rw [readCov_rowsOver, rowsOver_eq_carryFirst]
  rw [show k0_pay6 (F := Ideal) x0 = x0 from shapeCast_self _ _,
    show k0_pay5 (F := Ideal) (carryFirst x1) = carryFirst x1 from shapeCast_self _ _]
  rw [readCov_window]
  exact pay2_apply (carryFirst x1) x0 _

/-- After a later tile too. -/
theorem sout_B (c : Dev nD) (i : grid0.Coords) (a2 : Memref sig .tc .vmem S1x512x2048 .f32) (h2 : a2.IsWhole) (a3 : Memref sig .tc .vmem S1x4x2048 .f32) (h3 : a3.IsWhole) (a4 : Memref sig .tc .vmem S4x2048 .f32) (h4 : a4.IsWhole) (a5 : Memref sig .tc .vmem S1x2048 .f32) (h5 : a5.IsWhole) (a6 : Memref sig .tc .vmem S1x512x2048 .f32) (h6 : a6.IsWhole) (a7 : Memref sig .tc .vmem S1x8x2048 .f32) (h7 : a7.IsWhole) (a8 : Memref sig .tc .vmem S1x520x2048 .f32) (h8 : a8.IsWhole) (hc : ¬cond0_0 i)
    (x0 : Vec Ideal S1x512x2048 .f32) (x1 : Vec Ideal S1x4x2048 .f32) (x2 : Vec Ideal S4x2048 .f32) (x3 : Vec Ideal S1x2048 .f32)
    (xs0 : Vec Ideal S1x8x2048 .f32) :
    sout0_B_0 (F := Ideal) c i a2 h2 a3 h3 a4 h4 a5 h5 a6 h6 a7 h7 a8 h8 hc x0 x1 x2 x3 xs0 = lastRows x0 := by
  unfold sout0_B_0
  rw [View.read_writes_eq_canon _ _ _ (scover0_B_0 c i a2 h2 a3 h3 a4 h4 a5 h5 a6 h6 a7 h7 a8 h8 hc x0 x1 x2 x3 xs0)]
  unfold kernelRun0_B
  dsimp only
  sl_unfold_words
  rw [View.canon_unit_zero (S := S1x8x2048) hz3]
  simp only [View.readAt_eq_ld, h2.read_unread, h7.read_unread, View.ld_unit_zero (S := S1x512x2048) hz3,
    View.ld_unit_zero (S := S1x8x2048) hz3]
  rw [show k0_pay6 (F := Ideal) x0 = x0 from shapeCast_self _ _, show k0_pay5 (F := Ideal) xs0 = xs0 from shapeCast_self _ _]
  rw [readCov_window]
  exact pay2_apply xs0 x0 _

end Cert.KernelIdeal.Body

end
-- ==== Proof.ConvSpec.lean ====
/-
  The depthwise causal convolution with four taps, stated once over the extended reals.

  For a batch `b` and a channel `c` the sequence that is convolved is the PADDED sequence: the last three of the four
  carried context entries `cs[b, c, 1..3]`, followed by the 4096 entries `x[b, 0..4095, c]`. The result at time `t` is

      y[b, t, c] = Σ_{k < 4} padded(t + k) · w[c, k] + bias[c],

  and, position `t + 3` of the padded sequence being `x[b, t, c]` itself, the last tap never reads the context.
  Two groupings of this five-term sum are stated — one starting from zero and adding the bias last, one starting from the
  last tap plus the bias — and shown equal: addition on the extended reals is commutative and associative, and `0 + a = a`,
  so no finiteness is needed. The second result is the new context: the last four time steps of `x`, channel-major.
-/
import Idealize.ShloMosaic.PureOps.Ideal
import Idealize.ShloMosaic.PureOps.Ideal.Laws
import Idealize.ShloMosaic.Lib.ValueIdx

noncomputable section

namespace Cert.ConvSpec

open Idealize.ShloMosaic Idealize.ShloMosaic.ValueIdx

/-- The input sequence `x`: batch, time, channel. -/
abbrev SX : Shape := ⟨3, ![4, 4096, 2048]⟩
/-- The carried context: batch, channel, four entries. -/
abbrev SC : Shape := ⟨3, ![4, 2048, 4]⟩
/-- The taps: channel, tap. -/
abbrev SW : Shape := ⟨2, ![2048, 4]⟩
/-- The bias: channel. -/
abbrev SB : Shape := ⟨1, ![2048]⟩

/-- Position `n` of the padded sequence of channel `c` in batch `b`: the context entries 1, 2, 3, then `x` from time 0
    (positions past the end, which no tap reads, are given the value 0). -/
def padded (x : SX.Idx → EReal) (cs : SC.Idx → EReal) (b : Fin 4) (c : Fin 2048) (n : ℕ) : EReal :=
  if h : n < 3 then cs (ix3 b c ⟨n + 1, by omega⟩)
  else if h' : n - 3 < 4096 then x (ix3 b ⟨n - 3, h'⟩ c) else 0

theorem padded_lt (x : SX.Idx → EReal) (cs : SC.Idx → EReal) (b : Fin 4) (c : Fin 2048) (n : ℕ) (h : n < 3) :
    padded x cs b c n = cs (ix3 b c ⟨n + 1, by omega⟩) := by
  unfold padded; rw [dif_pos h]

theorem padded_ge (x : SX.Idx → EReal) (cs : SC.Idx → EReal) (b : Fin 4) (c : Fin 2048) (n : ℕ) (h : 3 ≤ n)
    (h' : n - 3 < 4096) : padded x cs b c n = x (ix3 b ⟨n - 3, h'⟩ c) := by
  unfold padded; rw [dif_neg (by omega), dif_pos h']

/-- The tap at offset 3 reads `x` at the output's own time. -/
theorem padded_last (x : SX.Idx → EReal) (cs : SC.Idx → EReal) (b : Fin 4) (c : Fin 2048) (t : Fin 4096) :
    padded x cs b c (t.val + 3) = x (ix3 b t c) := by
  rw [padded_ge x cs b c (t.val + 3) (by omega) (by have := t.isLt; omega)]
  congr 1

/-- The convolution, the four taps added in order onto zero and the bias last. -/
def conv (x : SX.Idx → EReal) (cs : SC.Idx → EReal) (w : SW.Idx → EReal) (bias : SB.Idx → EReal) (j : SX.Idx) : EReal :=
  ((((0 + padded x cs (j 0) (j 2) (j 1).val * w (ix2 (j 2) 0))
      + padded x cs (j 0) (j 2) ((j 1).val + 1) * w (ix2 (j 2) 1))
      + padded x cs (j 0) (j 2) ((j 1).val + 2) * w (ix2 (j 2) 2))
      + padded x cs (j 0) (j 2) ((j 1).val + 3) * w (ix2 (j 2) 3))
    + bias (ix1 (j 2))

/-- The same sum started from the last tap and the bias, the three context-reading taps added after. -/
def convLastFirst (x : SX.Idx → EReal) (cs : SC.Idx → EReal) (w : SW.Idx → EReal) (bias : SB.Idx → EReal) (j : SX.Idx) : EReal :=
  (((x j * w (ix2 (j 2) 3) + bias (ix1 (j 2)))
      + padded x cs (j 0) (j 2) (j 1).val * w (ix2 (j 2) 0))
      + padded x cs (j 0) (j 2) ((j 1).val + 1) * w (ix2 (j 2) 1))
      + padded x cs (j 0) (j 2) ((j 1).val + 2) * w (ix2 (j 2) 2)

/-- The two groupings are one sum. -/
theorem convLastFirst_eq_conv (x : SX.Idx → EReal) (cs : SC.Idx → EReal) (w : SW.Idx → EReal) (bias : SB.Idx → EReal) :
    convLastFirst x cs w bias = conv x cs w bias := by
  funext j
  unfold convLastFirst conv
  have hlast : padded x cs (j 0) (j 2) ((j 1).val + 3) = x j :=
    (padded_last x cs (j 0) (j 2) (j 1)).trans (congrArg x (eq_ix3 j).symm)
  rw [hlast, zero_add]
  generalize x j * w (ix2 (j 2) 3) = d
  generalize bias (ix1 (j 2)) = e
  generalize padded x cs (j 0) (j 2) (j 1).val * w (ix2 (j 2) 0) = a0
  generalize padded x cs (j 0) (j 2) ((j 1).val + 1) * w (ix2 (j 2) 1) = a1
  generalize padded x cs (j 0) (j 2) ((j 1).val + 2) * w (ix2 (j 2) 2) = a2
  abel

/-- The new context: the last four time steps of `x`, channel-major. -/
def lastFour (x : SX.Idx → EReal) (j : SC.Idx) : EReal :=
  x (ix3 (j 0) ⟨4092 + (j 2).val, by have h : (j 2).val < 4 := (j 2).isLt; omega⟩ (j 1))

end Cert.ConvSpec

end
-- ==== Proof.PointValue.lean ====
/-
  One grid point's output tile is the convolution on its rows.

  Grid point `(b, i)` handles rows `512·i … 512·i + 511` of batch `b`. Its window's row `ρ ≥ 5` holds position
  `512·i + ρ - 5` of the padded sequence: for `ρ ≥ 8` it is row `ρ - 8` of the tile, that is `x` at time `512·i + ρ - 8`, which is
  padded position `512·i + ρ - 5`; for `ρ = 5, 6, 7` it is a carried row, and the carried rows are required to hold exactly those
  positions. The body's output at row `r` reads window rows `r + 5, r + 6, r + 7`, the padded positions `512·i + r + k` for
  `k = 0, 1, 2`: with the tap at the row itself this is the convolution at time `512·i + r`, the last tap first.
-/
import proofs.«177478_j59760174956725_2_alg».proof.Proof.BodyValue
import proofs.«177478_j59760174956725_2_alg».proof.Proof.ConvSpec

noncomputable section

open Idealize.ShloMosaic Idealize.ShloMosaic.ValueIdx

namespace Cert.KernelIdeal.Point

open Cert.KernelIdeal Cert.KernelIdeal.Window Cert.KernelIdeal.Body Cert.ConvSpec

variable (X : SX.Idx → EReal) (CS : SC.Idx → EReal) (W : SW.Idx → EReal) (B : SB.Idx → EReal)

/-- Window row `ρ ≥ 5` of point `(b, i)` is padded position `512·i + ρ - 5`. -/
theorem window_eq_padded (b : Fin 4) (i : ℕ) (hi : i < 8) (carry : Vec Ideal S1x8x2048 .f32) (x0 : Vec Ideal S1x512x2048 .f32)
    (hx0 : ∀ (r : ℕ) (hr : r < 512) (l : Fin 2048), x0 (ix3 0 ⟨r, hr⟩ l) = X (ix3 b ⟨512 * i + r, by omega⟩ l))
    (hcarry : ∀ (ρ : ℕ) (h5 : 5 ≤ ρ) (h8 : ρ < 8) (l : Fin 2048), carry (ix3 0 ⟨ρ, h8⟩ l) = padded X CS b l (512 * i + ρ - 5))
    (ρ : ℕ) (h5 : 5 ≤ ρ) (hρ : ρ < 520) (l : Fin 2048) :
    windowOf carry x0 (ix3 0 ⟨ρ, hρ⟩ l) = padded X CS b l (512 * i + ρ - 5) := by
  unfold windowOf
  by_cases h : ρ < 8
  · rw [dif_pos (show ((ix3 (0 : Fin 1) (⟨ρ, hρ⟩ : Fin 520) l) 1).val < 8 from h)]
    exact hcarry ρ h5 h l
  · rw [dif_neg (show ¬((ix3 (0 : Fin 1) (⟨ρ, hρ⟩ : Fin 520) l) 1).val < 8 from h)]
    rw [padded_ge X CS b l (512 * i + ρ - 5) (by omega) (by omega)]
    refine (hx0 (ρ - 8) (by omega) l).trans (congrArg X ?_)
    congr 1
    apply Fin.ext
    show 512 * i + (ρ - 8) = 512 * i + ρ - 5 - 3
    omega

/-- The body's output at row `r`, lane `l` of point `(b, i)` is the convolution at `(b, 512·i + r, l)`. -/
theorem bodyOut_eq_conv (b : Fin 4) (i : ℕ) (hi : i < 8) (carry : Vec Ideal S1x8x2048 .f32) (x0 : Vec Ideal S1x512x2048 .f32)
    (x2 : Vec Ideal S4x2048 .f32) (x3 : Vec Ideal S1x2048 .f32)
    (hx0 : ∀ (r : ℕ) (hr : r < 512) (l : Fin 2048), x0 (ix3 0 ⟨r, hr⟩ l) = X (ix3 b ⟨512 * i + r, by omega⟩ l))
    (hx2 : ∀ (k : Fin 4) (l : Fin 2048), x2 (ix2 k l) = W (ix2 l k))
    (hx3 : ∀ l : Fin 2048, x3 (ix2 0 l) = B (ix1 l))
    (hcarry : ∀ (ρ : ℕ) (h5 : 5 ≤ ρ) (h8 : ρ < 8) (l : Fin 2048), carry (ix3 0 ⟨ρ, h8⟩ l) = padded X CS b l (512 * i + ρ - 5))
    (r : ℕ) (hr : r < 512) (l : Fin 2048) :
    bodyOut carry x0 x2 x3 (ix3 0 ⟨r, hr⟩ l) = conv X CS W B (ix3 b ⟨512 * i + r, by omega⟩ l) := by
  rw [← convLastFirst_eq_conv]
  have w5 := window_eq_padded X CS b i hi carry x0 hx0 hcarry (5 + r) (by omega) (by omega) l
  have w6 := window_eq_padded X CS b i hi carry x0 hx0 hcarry (6 + r) (by omega) (by omega) l
  have w7 := window_eq_padded X CS b i hi carry x0 hx0 hcarry (7 + r) (by omega) (by omega) l
  rw [show 512 * i + (5 + r) - 5 = 512 * i + r from by omega] at w5
  rw [show 512 * i + (6 + r) - 5 = 512 * i + r + 1 from by omega] at w6
  rw [show 512 * i + (7 + r) - 5 = 512 * i + r + 2 from by omega] at w7
  show (((x0 (ix3 0 ⟨r, hr⟩ l) * x2 (ix2 3 l) + x3 (ix2 0 l))
      + windowOf carry x0 (ix3 0 ⟨5 + r, by omega⟩ l) * x2 (ix2 0 l))
      + windowOf carry x0 (ix3 0 ⟨6 + r, by omega⟩ l) * x2 (ix2 1 l))
      + windowOf carry x0 (ix3 0 ⟨7 + r, by omega⟩ l) * x2 (ix2 2 l)
    = (((X (ix3 b ⟨512 * i + r, by omega⟩ l) * W (ix2 l 3) + B (ix1 l))
      + padded X CS b l (512 * i + r) * W (ix2 l 0))
      + padded X CS b l (512 * i + r + 1) * W (ix2 l 1))
      + padded X CS b l (512 * i + r + 2) * W (ix2 l 2)
  rw [w5, w6, w7, hx0 r hr l, hx2 3 l, hx2 0 l, hx2 1 l, hx2 2 l, hx3 l]

end Cert.KernelIdeal.Point

end
-- ==== Proof.KernelValue.lean ====
/-
  The kernel's two results as whole arrays.

  Each of the 32 grid points `t = 8·b + i` is handed tile `i` of batch `b` of `x`, batch `b` of the context (tap-major, as the
  host transposed it), the taps (tap-major) and the bias row, and writes tile `i` of batch `b` of the result. The carried
  rows it finds are either set up from the context (`i = 0`) or the last eight rows of the tile before (`i > 0`, same batch);
  in both cases rows 5, 6, 7 hold the three padded positions before the tile's first row, so every point writes the
  convolution on its rows, and the 32 tiles cover the result. The second result is computed by the host from `x` alone.
-/
import proofs.«177478_j59760174956725_2_alg».proof.Proof.Gen.KernelIdeal.Frame
import proofs.«177478_j59760174956725_2_alg».proof.Proof.PointValue
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Window Cert.KernelIdeal.Body Cert.KernelIdeal.Point Cert.ConvSpec

variable (m : (ℓ : Loc nD τ sig) → Buf (Elt Ideal) ℓ) (ρ : Dev nD → PrngReg)

/-! ## What the host prepared before the region -/

/-- The context as the region finds it: tap-major. -/
theorem V_ctx (c : Dev nD) : V m c main_v2
    = transpose S4x4x2048 [0, 2, 1] (m ((c : Thread nD τ).loc main_arg1)) transposes_S4x2048x4_S4x4x2048_0_2_1 := by
  show StableHlo.after hostOps0 (fun b => m (c, b)) (Proc.devRef .tc main_v2) = _
  after_results

/-- The taps as the region finds them: tap-major. -/
theorem V_taps (c : Dev nD) : V m c main_v0
    = transpose S4x2048 [1, 0] (m ((c : Thread nD τ).loc main_arg2)) transposes_S2048x4_S4x2048_1_0 := by
  show StableHlo.after hostOps0 (fun b => m (c, b)) (Proc.devRef .tc main_v0) = _
  after_results

/-- The bias as the region finds it: a row. -/
theorem V_bias (c : Dev nD) : V m c main_v1
    = broadcastInDim S1x2048 ![1] bcast_S2048_S1x2048_1 (m ((c : Thread nD τ).loc main_arg3)) := by
  show StableHlo.after hostOps0 (fun b => m (c, b)) (Proc.devRef .tc main_v1) = _
  after_results

/-! ## The blocks of the grid points -/

theorem hN : cfg0.N = 32 := N_0
theorem t_lt (t : Fin cfg0.N) : t.val < 32 := lt_of_lt_of_eq t.isLt N_0
theorem b_lt (t : Fin cfg0.N) : t.val / 8 < 4 := by have := t_lt t; omega

/-- Point `t` is tile `t % 8` of batch `t / 8`: the block indices of the five windows, decided over the grid. -/
theorem idx_x : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem idx_ctx : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idx_taps : ∀ t : Fin cfg0.N, win0_2.index t 0 = 0 ∧ win0_2.index t 1 = 0 :=
  (by decide +kernel : ∀ t : Fin grid0.N, win0_2.index t 0 = 0 ∧ win0_2.index t 1 = 0)
theorem idx_bias : ∀ t : Fin cfg0.N, win0_3.index t 0 = 0 ∧ win0_3.index t 1 = 0 :=
  (by decide +kernel : ∀ t : Fin grid0.N, win0_3.index t 0 = 0 ∧ win0_3.index t 1 = 0)
theorem idx_out : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)

/-- The tile of `x` at point `t`. -/
theorem iblk_x_apply (c : Dev nD) (t : Fin cfg0.N) (r : ℕ) (hr : r < 512) (l : Fin 2048) :
    (iblk m c 0 t : Vec Ideal S1x512x2048 .f32) (ix3 0 ⟨r, hr⟩ l)
      = m ((c : Thread nD τ).loc main_arg0) (ix3 (⟨t.val / 8, b_lt t⟩ : Fin 4)
          (⟨512 * (t.val % 8) + r, by omega⟩ : Fin 4096) l) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1 + 1 * 0 = t.val / 8; rw [(idx_x t).1]; omega
  | ⟨1, _⟩ => show win0_0.index t 1 * 512 + 1 * r = 512 * (t.val % 8) + r; rw [(idx_x t).2.1]; omega
  | ⟨2, _⟩ => show win0_0.index t 2 * 2048 + 1 * l.val = l.val; rw [(idx_x t).2.2]; omega

/-- The context block at point `t`: batch `t / 8`, tap-major. -/
theorem iblk_ctx_apply (c : Dev nD) (t : Fin cfg0.N) (k : Fin 4) (l : Fin 2048) :
    (iblk m c 1 t : Vec Ideal S1x4x2048 .f32) (ix3 0 k l)
      = m ((c : Thread nD τ).loc main_arg1) (ix3 (⟨t.val / 8, b_lt t⟩ : Fin 4) l k) := by
  unfold iblk
  rw [View.read_apply]
  show V m c main_v2 _ = _
  rw [V_ctx]
  refine (congrArg _ (?_ : _ = ix3 (⟨t.val / 8, b_lt t⟩ : Fin 4) k l)).trans
    (transpose_ix3_021_apply (m ((c : Thread nD τ).loc main_arg1)) transposes_S4x2048x4_S4x4x2048_0_2_1 _ k l)
  funext a; apply Fin.ext
  match a with
  | ⟨0, _⟩ => show win0_1.index t 0 * 1 + 1 * 0 = t.val / 8; rw [(idx_ctx t).1]; omega
  | ⟨1, _⟩ => show win0_1.index t 1 * 4 + 1 * k.val = k.val; rw [(idx_ctx t).2.1]; omega
  | ⟨2, _⟩ => show win0_1.index t 2 * 2048 + 1 * l.val = l.val; rw [(idx_ctx t).2.2]; omega

/-- The taps at any point: all of them, tap-major. -/
theorem iblk_taps_apply (c : Dev nD) (t : Fin cfg0.N) (k : Fin 4) (l : Fin 2048) :
    (iblk m c 2 t : Vec Ideal S4x2048 .f32) (ix2 k l) = m ((c : Thread nD τ).loc main_arg2) (ix2 l k) := by
  unfold iblk
  rw [View.read_apply]
  show V m c main_v0 _ = _
  rw [V_taps]
  refine (congrArg _ (?_ : _ = ix2 k l)).trans
    (transpose_ix2_apply (m ((c : Thread nD τ).loc main_arg2)) transposes_S2048x4_S4x2048_1_0 k l)
  funext a; apply Fin.ext
  match a with
  | ⟨0, _⟩ => show win0_2.index t 0 * 4 + 1 * k.val = k.val; rw [(idx_taps t).1]; omega
  | ⟨1, _⟩ => show win0_2.index t 1 * 2048 + 1 * l.val = l.val; rw [(idx_taps t).2]; omega

/-- The bias row at any point. -/
theorem iblk_bias_apply (c : Dev nD) (t : Fin cfg0.N) (l : Fin 2048) :
    (iblk m c 3 t : Vec Ideal S1x2048 .f32) (ix2 0 l) = m ((c : Thread nD τ).loc main_arg3) (ix1 l) := by
  unfold iblk
  rw [View.read_apply]
  show V m c main_v1 _ = _
  rw [V_bias]
  refine broadcastInDim_apply _ bcast_S2048_S1x2048_1 (m ((c : Thread nD τ).loc main_arg3)) _ (ix1 l) (fun a => ?_)
  match a with
  | ⟨0, _⟩ =>
    show l.val = if (2048 : ℕ) = 1 then 0 else win0_3.index t 1 * 2048 + 1 * l.val
    rw [if_neg (by decide), (idx_bias t).2]; omega

/-! ## The carried rows and the output tile of each point -/

/-- After any point the carried rows are its tile's last eight rows. -/
theorem carried_eq (c : Dev nD) (t : Fin cfg0.N) :
    (outsAt0 m c t.val t.isLt).2 = lastRows (iblk m c 0 t) := by
  by_cases h0 : t.val % 8 = 0
  · rw [outsAt0_A m c t h0]
    dsimp only
    exact sout_A c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (iblk m c 0 t) (iblk m c 1 t) (iblk m c 2 t) (iblk m c 3 t)
  · rw [outsAt0_B m c t h0]
    dsimp only
    exact sout_B c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (iblk m c 0 t) (iblk m c 1 t) (iblk m c 2 t) (iblk m c 3 t) (outsAt0 m c (t.val - 1) (Nat.lt_of_le_of_lt (Nat.sub_le _ _) t.isLt)).2

/-- The rows a batch's first tile sets up hold the context entries: row `ρ ≥ 5` is padded position `ρ - 5`. -/
theorem carry_first (c : Dev nD) (t : Fin cfg0.N) (h0 : t.val % 8 = 0) (ρ : ℕ) (h5 : 5 ≤ ρ) (h8 : ρ < 8) (l : Fin 2048) :
    carryFirst (iblk m c 1 t) (ix3 0 ⟨ρ, h8⟩ l)
      = padded (m ((c : Thread nD τ).loc main_arg0)) (m ((c : Thread nD τ).loc main_arg1)) ⟨t.val / 8, b_lt t⟩ l (512 * (t.val % 8) + ρ - 5) := by
  have e : carryFirst (iblk m c 1 t) (ix3 0 ⟨ρ, h8⟩ l)
      = (iblk m c 1 t : Vec Ideal S1x4x2048 .f32) (ix3 0 (⟨1 + (ρ - 5), by omega⟩ : Fin 4) l) := by
    unfold carryFirst rowsOver
    rw [dif_pos (show 5 ≤ ((ix3 (0 : Fin 1) (⟨ρ, h8⟩ : Fin 8) l) 1).val from h5)]
  rw [e, iblk_ctx_apply, padded_lt _ _ _ l _ (by rw [h0]; omega)]
  refine congrArg (m ((c : Thread nD τ).loc main_arg1)) ?_
  congr 1
  apply Fin.ext
  show 1 + (ρ - 5) = 512 * (t.val % 8) + ρ - 5 + 1
  rw [h0]; omega

/-- The rows a later tile finds hold the end of the tile before: row `ρ ≥ 5` is padded position `512·i + ρ - 5`. -/
theorem carry_later (c : Dev nD) (t : Fin cfg0.N) (h0 : ¬t.val % 8 = 0) (ρ : ℕ) (h5 : 5 ≤ ρ) (h8 : ρ < 8) (l : Fin 2048) :
    (outsAt0 m c (t.val - 1) (Nat.lt_of_le_of_lt (Nat.sub_le _ _) t.isLt)).2 (ix3 0 ⟨ρ, h8⟩ l)
      = padded (m ((c : Thread nD τ).loc main_arg0)) (m ((c : Thread nD τ).loc main_arg1)) ⟨t.val / 8, b_lt t⟩ l (512 * (t.val % 8) + ρ - 5) := by
  have h32 := t_lt t
  refine (congrFun (carried_eq m c ⟨t.val - 1, Nat.lt_of_le_of_lt (Nat.sub_le _ _) t.isLt⟩) _).trans ?_
  have e : lastRows (iblk m c 0 ⟨t.val - 1, Nat.lt_of_le_of_lt (Nat.sub_le _ _) t.isLt⟩) (ix3 0 ⟨ρ, h8⟩ l)
      = (iblk m c 0 ⟨t.val - 1, Nat.lt_of_le_of_lt (Nat.sub_le _ _) t.isLt⟩ : Vec Ideal S1x512x2048 .f32)
          (ix3 0 (⟨504 + ρ, by omega⟩ : Fin 512) l) := rfl
  rw [e, iblk_x_apply, padded_ge _ _ _ l _ (by omega) (by omega)]
  refine congrArg (m ((c : Thread nD τ).loc main_arg0)) ?_
  congr 1
  · apply Fin.ext
    show (t.val - 1) / 8 = t.val / 8
    omega
  · apply Fin.ext
    show 512 * ((t.val - 1) % 8) + (504 + ρ) = 512 * (t.val % 8) + ρ - 5 - 3
    omega

/-- Every point's output tile is the convolution on the tile's rows. -/
theorem tile_eq (c : Dev nD) (t : Fin cfg0.N) (r : ℕ) (hr : r < 512) (l : Fin 2048) :
    (outsAt0 m c t.val t.isLt).1 (ix3 0 ⟨r, hr⟩ l)
      = conv (m ((c : Thread nD τ).loc main_arg0)) (m ((c : Thread nD τ).loc main_arg1)) (m ((c : Thread nD τ).loc main_arg2)) (m ((c : Thread nD τ).loc main_arg3))
          (ix3 (⟨t.val / 8, b_lt t⟩ : Fin 4) (⟨512 * (t.val % 8) + r, by omega⟩ : Fin 4096) l) := by
  have hi : t.val % 8 < 8 := Nat.mod_lt _ (by decide)
  by_cases h0 : t.val % 8 = 0
  · rw [outsAt0_A m c t h0]
    dsimp only
    rw [out_A c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (iblk m c 0 t) (iblk m c 1 t) (iblk m c 2 t) (iblk m c 3 t)]
    exact bodyOut_eq_conv (m ((c : Thread nD τ).loc main_arg0)) (m ((c : Thread nD τ).loc main_arg1)) (m ((c : Thread nD τ).loc main_arg2)) (m ((c : Thread nD τ).loc main_arg3)) ⟨t.val / 8, b_lt t⟩ (t.val % 8) hi
      (carryFirst (iblk m c 1 t)) (iblk m c 0 t) (iblk m c 2 t) (iblk m c 3 t)
      (fun r hr l => iblk_x_apply m c t r hr l) (fun k l => iblk_taps_apply m c t k l) (fun l => iblk_bias_apply m c t l)
      (fun ρ h5 h8 l => carry_first m c t h0 ρ h5 h8 l) r hr l
  · rw [outsAt0_B m c t h0]
    dsimp only
    rw [out_B c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (iblk m c 0 t) (iblk m c 1 t) (iblk m c 2 t) (iblk m c 3 t) (outsAt0 m c (t.val - 1) (Nat.lt_of_le_of_lt (Nat.sub_le _ _) t.isLt)).2]
    exact bodyOut_eq_conv (m ((c : Thread nD τ).loc main_arg0)) (m ((c : Thread nD τ).loc main_arg1)) (m ((c : Thread nD τ).loc main_arg2)) (m ((c : Thread nD τ).loc main_arg3)) ⟨t.val / 8, b_lt t⟩ (t.val % 8) hi
      (outsAt0 m c (t.val - 1) (Nat.lt_of_le_of_lt (Nat.sub_le _ _) t.isLt)).2 (iblk m c 0 t) (iblk m c 2 t) (iblk m c 3 t)
      (fun r hr l => iblk_x_apply m c t r hr l) (fun k l => iblk_taps_apply m c t k l) (fun l => iblk_bias_apply m c t l)
      (fun ρ h5 h8 l => carry_later m c t h0 ρ h5 h8 l) r hr l

/-! ## The result array -/

/-- What point `t` writes back is block `t` of the convolution. -/
theorem flushed_eq (c : Dev nD) (t : Fin cfg0.N) :
    (dats m 0 c).flushed 4 t = ((cfg0.win 4).blk t).view.read (Elt Ideal) (conv (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  funext j
  have h0 : (j 0).val < 1 := (j 0).isLt
  have h1 : (j 1).val < 512 := (j 1).isLt
  have h2 : (j 2).val < 2048 := (j 2).isLt
  have e : (j : S1x512x2048.Idx) = ix3 0 ⟨(j 1).val, h1⟩ ⟨(j 2).val, h2⟩ := funext fun a => Fin.ext (by
    match a with
    | ⟨0, _⟩ => show (j 0).val = 0; omega
    | ⟨1, _⟩ => rfl
    | ⟨2, _⟩ => rfl)
  show (outsAt0 m c t.val t.isLt).1 j = conv (m ((c : Thread nD τ).loc main_arg0)) (m ((c : Thread nD τ).loc main_arg1)) (m ((c : Thread nD τ).loc main_arg2)) (m ((c : Thread nD τ).loc main_arg3)) (((cfg0.win 4).blk t).view.emb j)
  refine (congrArg (outsAt0 m c t.val t.isLt).1 e).trans
    ((tile_eq m c t (j 1).val h1 ⟨(j 2).val, h2⟩).trans (congrArg (conv (m ((c : Thread nD τ).loc main_arg0)) (m ((c : Thread nD τ).loc main_arg1)) (m ((c : Thread nD τ).loc main_arg2)) (m ((c : Thread nD τ).loc main_arg3))) ?_))
  funext a; apply Fin.ext
  match a with
  | ⟨0, _⟩ => show t.val / 8 = win0_4.index t 0 * 1 + 1 * (j 0).val; rw [(idx_out t).1]; omega
  | ⟨1, _⟩ => show 512 * (t.val % 8) + (j 1).val = win0_4.index t 1 * 512 + 1 * (j 1).val; rw [(idx_out t).2.1]; omega
  | ⟨2, _⟩ => show (j 2).val = win0_4.index t 2 * 2048 + 1 * (j 2).val; rw [(idx_out t).2.2]; omega

/-- An index of the result is in point `t`'s block iff each coordinate is in the block's range on its axis. -/
theorem mem_blk (t : Fin cfg0.N) (i : S4x4096x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v3).slice (win0_4.rect t)).set ↔ _
  rw [View.set_slice_whole, Rect.mem_set_unit]
  exact Iff.rfl

/-- Row `r` of batch `b` is written by point `8·b + r / 512`. -/
theorem cover (i : S4x4096x2048.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 2048 := (i 2).isLt
  have hlt : 8 * (i 0).val + (i 1).val / 512 < cfg0.N := lt_of_lt_of_eq (by omega) hN.symm
  refine ⟨⟨8 * (i 0).val + (i 1).val / 512, hlt⟩, flush0_4 _, (mem_blk _ i).mpr fun a => ?_⟩
  obtain ⟨e0, e1, e2⟩ := idx_out ⟨8 * (i 0).val + (i 1).val / 512, hlt⟩
  match a with
  | ⟨0, _⟩ =>
    show win0_4.index ⟨8 * (i 0).val + (i 1).val / 512, hlt⟩ 0 * 1 ≤ (i 0).val
      ∧ (i 0).val < win0_4.index ⟨8 * (i 0).val + (i 1).val / 512, hlt⟩ 0 * 1 + 1
    rw [e0]; show (8 * (i 0).val + (i 1).val / 512) / 8 * 1 ≤ (i 0).val ∧ (i 0).val < (8 * (i 0).val + (i 1).val / 512) / 8 * 1 + 1
    omega
  | ⟨1, _⟩ =>
    show win0_4.index ⟨8 * (i 0).val + (i 1).val / 512, hlt⟩ 1 * 512 ≤ (i 1).val
      ∧ (i 1).val < win0_4.index ⟨8 * (i 0).val + (i 1).val / 512, hlt⟩ 1 * 512 + 512
    rw [e1]; show (8 * (i 0).val + (i 1).val / 512) % 8 * 512 ≤ (i 1).val ∧ (i 1).val < (8 * (i 0).val + (i 1).val / 512) % 8 * 512 + 512
    omega
  | ⟨2, _⟩ =>
    show win0_4.index ⟨8 * (i 0).val + (i 1).val / 512, hlt⟩ 2 * 2048 ≤ (i 2).val
      ∧ (i 2).val < win0_4.index ⟨8 * (i 0).val + (i 1).val / 512, hlt⟩ 2 * 2048 + 2048
    rw [e2]; omega

/-- The result array ends holding the convolution. -/
theorem final (c : Dev nD) : (dats m 0 c).arrAt 4 cfg0.N = conv (m ((c : Thread nD τ).loc main_arg0)) (m ((c : Thread nD τ).loc main_arg1)) (m ((c : Thread nD τ).loc main_arg2)) (m ((c : Thread nD τ).loc main_arg3)) :=
  (dats m 0 c).arrAt_eq_of_cover 4 (conv (m ((c : Thread nD τ).loc main_arg0)) (m ((c : Thread nD τ).loc main_arg1)) (m ((c : Thread nD τ).loc main_arg2)) (m ((c : Thread nD τ).loc main_arg3))) (fun t _ => flushed_eq m c t) cover

/-! ## The second result: the host's slice of `x` after the region -/

theorem tail_eq (c : Dev nD) :
    Pipeline.afterTail₀ cfgs (dats m) 0 (V0 m) [hostOps1] c main_v5 = lastFour (m ((c : Thread nD τ).loc main_arg0)) := by
  unfold Pipeline.afterTail₀
  show StableHlo.after hostOps1 _ (Proc.devRef .tc main_v5) = _
  after_results
  have hx : Pipeline.withArrays (cfgs 0).spec c (V0 m c) (fun w => (dats m 0 c).arrAt w (cfgs 0).N)
      (Proc.tc.devRef main_arg0) = m ((c : Thread nD τ).loc main_arg0) :=
    (Pipeline.withArrays_arr spec0 launch0.win.arr_inj c _ _ 0).trans
      (((dats m 0 c).arrAt_in 0 rfl _).trans ((A_eq m c 0).trans (V_main_arg0 m c)))
  rw [hx]
  funext j
  obtain ⟨b, ch, k, rfl⟩ : ∃ (b : Fin 4) (ch : Fin 2048) (k : Fin 4), j = ix3 b ch k := ⟨j 0, j 1, j 2, eq_ix3 j⟩
  rw [transpose_ix3_021_apply]
  unfold lastFour
  exact extractStridedSlice_apply ![0, 4092, 0] _ slices_S4x4096x2048_S4x4x2048_0_4092_0 (ix3 b k ch)
    (ix3 b (⟨4092 + k.val, by omega⟩ : Fin 4096) ch) (fun a => by
      match a with
      | ⟨0, _⟩ => show b.val = 0 + b.val; omega
      | ⟨1, _⟩ => rfl
      | ⟨2, _⟩ => show ch.val = 0 + ch.val; omega)

/-! ## The run, read -/

/-- Every weakly fair execution of the program ends with the first result at the convolution, the second at the last
    four time steps of `x`, and the arguments unchanged. -/
theorem run : θ_run defs (onTc (τ := τ) (main (F := Ideal))) ⟨m, fun _ => 0, ρ⟩ fun r => ∀ c : Dev nD,
      r.2.mem ((c : Thread nD τ).loc main_v3) = conv (m ((c : Thread nD τ).loc main_arg0)) (m ((c : Thread nD τ).loc main_arg1)) (m ((c : Thread nD τ).loc main_arg2)) (m ((c : Thread nD τ).loc main_arg3))
      ∧ r.2.mem ((c : Thread nD τ).loc main_v5) = lastFour (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final m c),
      ((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefSide.lean ====
/-
  The reference program computes the convolution of `ConvSpec`.

  It works channel-major: `x` is transposed to `[batch, channel, time]`, the three context entries 1, 2, 3 are joined in
  front of it along the time axis — the padded sequence —, and the four shifted slices of that, each scaled by one tap,
  are added in order onto a zero array; the bias is added last and the result transposed back. Read at `(b, t, c)` this
  is `conv` term for term. The second result keeps the last four of the context joined with the transposed `x`: positions
  `4096 … 4099` of a sequence whose first four entries are the context, that is `x` at times `4092 … 4095`.
-/
import proofs.«177478_j59760174956725_2_alg».proof.Proof.Gen.ReferenceIdeal.Read
import proofs.«177478_j59760174956725_2_alg».proof.Proof.ConvSpec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.ConvSpec

variable (x0 : (⟨S4x4096x2048, .f32⟩ : BufTy).Contents (Elt Ideal)) (x1 : (⟨S4x2048x4, .f32⟩ : BufTy).Contents (Elt Ideal))
  (x2 : (⟨S2048x4, .f32⟩ : BufTy).Contents (Elt Ideal)) (x3 : (⟨S2048, .f32⟩ : BufTy).Contents (Elt Ideal))

/-- The joined array at position `n` of channel `c` in batch `b` is the padded sequence there. -/
theorem joined_apply (b : Fin 4) (c : Fin 2048) (n : ℕ) (hn : n < 4099) :
    val_main_v2 (F := Ideal) x0 x1 (ix3 b c ⟨n, hn⟩) = padded x0 x1 b c n := by
  unfold val_main_v2
  by_cases h : n < 3
  · rw [concatenate_pair_apply_left (t := S4x2048x4099) (s₁ := S4x2048x3) (s₂ := S4x2048x4096) 2 _ _ concatenates_S4x2048x3_S4x2048x4096_S4x2048x4099_d2 (ix3 b c ⟨n, hn⟩) rfl
      (ix3 b c (⟨n, h⟩ : Fin 3)) (fun d => by match d with | ⟨0, _⟩ => rfl | ⟨1, _⟩ => rfl | ⟨2, _⟩ => rfl),
      val_main_v1_apply, padded_lt x0 x1 b c n h]
    refine congrArg x1 (funext fun a => Fin.ext ?_)
    match a with
    | ⟨0, _⟩ => rfl
    | ⟨1, _⟩ => rfl
    | ⟨2, _⟩ => show 1 + n = n + 1; omega
  · rw [concatenate_pair_apply_right (t := S4x2048x4099) (s₁ := S4x2048x3) (s₂ := S4x2048x4096) 2 _ _ concatenates_S4x2048x3_S4x2048x4096_S4x2048x4099_d2 (ix3 b c ⟨n, hn⟩) rfl rfl
      (ix3 b c (⟨n - 3, by omega⟩ : Fin 4096))
      (fun d hd => by match d with | ⟨0, _⟩ => rfl | ⟨1, _⟩ => rfl | ⟨2, _⟩ => exact absurd rfl hd)
      (by show n - 3 + 3 = n; omega),
      val_main_v0_apply, padded_ge x0 x1 b c n (by omega) (by omega)]
    refine congrArg x0 (funext fun a => Fin.ext ?_)
    match a with
    | ⟨0, _⟩ => rfl
    | ⟨1, _⟩ => rfl
    | ⟨2, _⟩ => rfl

/-! ## The taps, the bias and the zero the sum starts from, at an index -/

theorem tap0 (b : Fin 4) (c : Fin 2048) (T : Fin 4096) : val_main_v8 (F := Ideal) x2 (ix3 b c T) = x2 (ix2 c 0) := by
  rw [val_main_v8_apply, val_main_v7_apply, val_main_v6_apply, val_main_v5_apply]
  refine congrArg x2 (funext fun a => Fin.ext ?_)
  match a with
  | ⟨0, _⟩ => show c.val / 1 = c.val; omega
  | ⟨1, _⟩ => rfl

theorem tap1 (b : Fin 4) (c : Fin 2048) (T : Fin 4096) : val_main_v15 (F := Ideal) x2 (ix3 b c T) = x2 (ix2 c 1) := by
  rw [val_main_v15_apply, val_main_v14_apply, val_main_v13_apply, val_main_v12_apply]
  refine congrArg x2 (funext fun a => Fin.ext ?_)
  match a with
  | ⟨0, _⟩ => show c.val / 1 = c.val; omega
  | ⟨1, _⟩ => rfl

theorem tap2 (b : Fin 4) (c : Fin 2048) (T : Fin 4096) : val_main_v22 (F := Ideal) x2 (ix3 b c T) = x2 (ix2 c 2) := by
  rw [val_main_v22_apply, val_main_v21_apply, val_main_v20_apply, val_main_v19_apply]
  refine congrArg x2 (funext fun a => Fin.ext ?_)
  match a with
  | ⟨0, _⟩ => show c.val / 1 = c.val; omega
  | ⟨1, _⟩ => rfl

theorem tap3 (b : Fin 4) (c : Fin 2048) (T : Fin 4096) : val_main_v29 (F := Ideal) x2 (ix3 b c T) = x2 (ix2 c 3) := by
  rw [val_main_v29_apply, val_main_v28_apply, val_main_v27_apply, val_main_v26_apply]
  refine congrArg x2 (funext fun a => Fin.ext ?_)
  match a with
  | ⟨0, _⟩ => show c.val / 1 = c.val; omega
  | ⟨1, _⟩ => rfl

theorem biasAt (b : Fin 4) (c : Fin 2048) (T : Fin 4096) : val_main_v33 (F := Ideal) x3 (ix3 b c T) = x3 (ix1 c) := by
  rw [val_main_v33_apply, val_main_v32_apply]
  refine congrArg x3 (funext fun a => Fin.ext ?_)
  match a with
  | ⟨0, _⟩ => rfl

theorem zeroAt (i : S4x2048x4096.Idx) : val_main_v3 (F := Ideal) i = 0 := by
  rw [val_main_v3_apply, val_main_cst_apply]
  exact Ideal.ofBits_zero_f32

/-! ## The four shifted slices of the joined array -/

theorem pad0 (b : Fin 4) (c : Fin 2048) (T : Fin 4096) :
    val_main_v4 (F := Ideal) x0 x1 (ix3 b c T) = padded x0 x1 b c (T.val + 0) := by
  rw [val_main_v4_apply]
  have e : idx_main_v4 (ix3 b c T) = ix3 b c (⟨T.val + 0, by omega⟩ : Fin 4099) :=
    funext fun a => Fin.ext (by
      match a with
      | ⟨0, _⟩ => rfl
      | ⟨1, _⟩ => rfl
      | ⟨2, _⟩ => rfl)
  rw [e]
  exact joined_apply x0 x1 b c (T.val + 0) (by omega)

theorem pad1 (b : Fin 4) (c : Fin 2048) (T : Fin 4096) :
    val_main_v11 (F := Ideal) x0 x1 (ix3 b c T) = padded x0 x1 b c (T.val + 1) := by
  rw [val_main_v11_apply]
  have e : idx_main_v11 (ix3 b c T) = ix3 b c (⟨T.val + 1, by omega⟩ : Fin 4099) :=
    funext fun a => Fin.ext (by
      match a with
      | ⟨0, _⟩ => rfl
      | ⟨1, _⟩ => rfl
      | ⟨2, _⟩ => show 1 + T.val = T.val + 1; omega)
  rw [e]
  exact joined_apply x0 x1 b c (T.val + 1) (by omega)

theorem pad2 (b : Fin 4) (c : Fin 2048) (T : Fin 4096) :
    val_main_v18 (F := Ideal) x0 x1 (ix3 b c T) = padded x0 x1 b c (T.val + 2) := by
  rw [val_main_v18_apply]
  have e : idx_main_v18 (ix3 b c T) = ix3 b c (⟨T.val + 2, by omega⟩ : Fin 4099) :=
    funext fun a => Fin.ext (by
      match a with
      | ⟨0, _⟩ => rfl
      | ⟨1, _⟩ => rfl
      | ⟨2, _⟩ => show 2 + T.val = T.val + 2; omega)
  rw [e]
  exact joined_apply x0 x1 b c (T.val + 2) (by omega)

theorem pad3 (b : Fin 4) (c : Fin 2048) (T : Fin 4096) :
    val_main_v25 (F := Ideal) x0 x1 (ix3 b c T) = padded x0 x1 b c (T.val + 3) := by
  rw [val_main_v25_apply]
  have e : idx_main_v25 (ix3 b c T) = ix3 b c (⟨T.val + 3, by omega⟩ : Fin 4099) :=
    funext fun a => Fin.ext (by
      match a with
      | ⟨0, _⟩ => rfl
      | ⟨1, _⟩ => rfl
      | ⟨2, _⟩ => show 3 + T.val = T.val + 3; omega)
  rw [e]
  exact joined_apply x0 x1 b c (T.val + 3) (by omega)

/-! ## The two results -/

/-- The reference's first result is the convolution. -/
theorem ref_conv : val_main_v37 (F := Ideal) x0 x1 x2 x3 = conv x0 x1 x2 x3 := by
  funext j
  obtain ⟨b, T, c, rfl⟩ : ∃ (b : Fin 4) (T : Fin 4096) (c : Fin 2048), j = ix3 b T c := ⟨j 0, j 1, j 2, eq_ix3 j⟩
  rw [val_main_v37_apply]
  have e37 : idx_main_v37 (ix3 b T c) = ix3 b c T :=
    funext fun a => by match a with | ⟨0, _⟩ => rfl | ⟨1, _⟩ => rfl | ⟨2, _⟩ => rfl
  rw [e37, val_main_v34_apply, val_main_v31_apply, val_main_v24_apply, val_main_v17_apply, val_main_v10_apply,
    val_main_v9_apply, val_main_v16_apply, val_main_v23_apply, val_main_v30_apply,
    tap0, tap1, tap2, tap3, biasAt, zeroAt, pad0, pad1, pad2, pad3]
  rfl

/-- The reference's second result is the last four time steps of `x`. -/
theorem ref_last : val_main_v36 (F := Ideal) x0 x1 = lastFour x0 := by
  funext j
  obtain ⟨b, c, k, rfl⟩ : ∃ (b : Fin 4) (c : Fin 2048) (k : Fin 4), j = ix3 b c k := ⟨j 0, j 1, j 2, eq_ix3 j⟩
  rw [val_main_v36_apply]
  unfold val_main_v35
  rw [concatenate_pair_apply_right (t := S4x2048x4100) (s₁ := S4x2048x4) (s₂ := S4x2048x4096) 2 _ _
      concatenates_S4x2048x4_S4x2048x4096_S4x2048x4100_d2 (idx_main_v36 (ix3 b c k)) rfl rfl
      (ix3 b c (⟨4092 + k.val, by omega⟩ : Fin 4096))
      (fun d hd => by match d with | ⟨0, _⟩ => rfl | ⟨1, _⟩ => rfl | ⟨2, _⟩ => exact absurd rfl hd)
      (by show 4092 + k.val + 4 = 4096 + k.val; omega),
    val_main_v0_apply]
  unfold lastFour
  refine congrArg x0 (funext fun a => Fin.ext ?_)
  match a with
  | ⟨0, _⟩ => rfl
  | ⟨1, _⟩ => rfl
  | ⟨2, _⟩ => rfl

end Cert.ReferenceIdeal.RefValue

end
-- ==== Proof.lean ====
/-
  A depthwise causal convolution with four taps over `x : [4, 4096, 2048]` (batch, time, channel), with a carried context
  `[4, 2048, 4]`, per-channel taps `[2048, 4]` and a bias `[2048]`: the kernel against its reference, over the extended reals.

  Both programs compute, at `(b, t, c)`, the sum over the four taps `k` of (position `t + k` of the padded sequence of
  channel `c` in batch `b`) · `w[c, k]`, plus `bias[c]`, where the padded sequence is the context entries 1, 2, 3 followed by
  `x[b, ·, c]` (Proof/ConvSpec.lean). The reference builds the padded sequence whole, channel-major, and adds the four
  scaled shifted slices onto zero, the bias last (Proof/RefSide.lean). The kernel walks each batch in 8 tiles of 512 time
  steps, keeping the last eight rows of each tile for the next one (at a batch's first tile: zeros and the context), and
  starts its sum from the last tap and the bias (Proof/Window.lean, Proof/BodyValue.lean, Proof/PointValue.lean,
  Proof/KernelValue.lean). The two orders of the five-term sum agree because addition on the extended reals is
  commutative and associative and `0 + a = a`; no input needs to be finite for that, so the precondition is not opened.
  The second result, the new context, is in both programs the last four time steps of `x`, channel-major.

  The ideal pass rewrote nothing, so `preserves` is `True`. The frames of the two kernel programs are the generated ones;
  the reference's frame is its generated run with the results dropped.
-/
import proofs.«177478_j59760174956725_2_alg».proof.Defs
import proofs.«177478_j59760174956725_2_alg».proof.Proof.Gen.Kernel
import proofs.«177478_j59760174956725_2_alg».proof.Proof.Gen.Kernel.Skeleton
import proofs.«177478_j59760174956725_2_alg».proof.Proof.Gen.Kernel.Launch
import proofs.«177478_j59760174956725_2_alg».proof.Proof.Gen.Kernel.Points
import proofs.«177478_j59760174956725_2_alg».proof.Proof.Gen.Kernel.Frame
import proofs.«177478_j59760174956725_2_alg».proof.Proof.Gen.KernelIdeal
import proofs.«177478_j59760174956725_2_alg».proof.Proof.Gen.KernelIdeal.Skeleton
import proofs.«177478_j59760174956725_2_alg».proof.Proof.Gen.KernelIdeal.Launch
import proofs.«177478_j59760174956725_2_alg».proof.Proof.Gen.KernelIdeal.Points
import proofs.«177478_j59760174956725_2_alg».proof.Proof.Gen.KernelIdeal.Frame
import proofs.«177478_j59760174956725_2_alg».proof.Proof.Gen.ReferenceIdeal
import proofs.«177478_j59760174956725_2_alg».proof.Proof.Gen.ReferenceIdeal.Run
import proofs.«177478_j59760174956725_2_alg».proof.Proof.Gen.ReferenceIdeal.Read
import proofs.«177478_j59760174956725_2_alg».proof.Proof.Gen.Pre_finite_inputs
import proofs.«177478_j59760174956725_2_alg».proof.Proof.KernelValue
import proofs.«177478_j59760174956725_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's run ends at the convolution and the last four time steps of `x` (Proof/KernelValue.lean); the
    reference's run ends at its composed term, which is the same two functions of arguments that agree (Proof/RefSide.lean). -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v37_eq, Cert.ReferenceIdeal.RefValue.ref_conv,
      (hagree c).1, (hagree c).2.1, (hagree c).2.2.1, (hagree c).2.2.2]
  · rw [(h c).2.1, Cert.ReferenceIdeal.Read.val_main_v36_eq, Cert.ReferenceIdeal.RefValue.ref_last, (hagree c).1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
